-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S50000x64 .f32) (main_arg1 : IVec S2x800000 32) (main_arg2 : FVec F S64x64 .f32) (main_arg3 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S5000x64 : Shape := ⟨2, ![5000, 64]⟩
abbrev S5000x1 : Shape := ⟨2, ![5000, 1]⟩
abbrev S850000x64 : Shape := ⟨2, ![850000, 64]⟩
abbrev S1x64 : Shape := ⟨2, ![1, 64]⟩

abbrev nBuf : Space → Nat
  | .hbm => 41
  | .vmem => 16
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S50000, .i32⟩
  | .hbm, ⟨9, _⟩ => ⟨S850000, .i32⟩
  | .hbm, ⟨10, _⟩ => ⟨S850000, .i32⟩
  | .hbm, ⟨11, _⟩ => ⟨S_, .f32⟩
  | .hbm, ⟨12, _⟩ => ⟨S850000, .f32⟩
  | .hbm, ⟨13, _⟩ => ⟨S_, .f32⟩
  | .hbm, ⟨14, _⟩ => ⟨S50000, .f32⟩
  | .hbm, ⟨15, _⟩ => ⟨S850000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S50000x64, .f32⟩
  | .hbm, ⟨26, _⟩ => ⟨S_, .i32⟩
  | .hbm, ⟨27, _⟩ => ⟨S850000, .i32⟩
  | .hbm, ⟨28, _⟩ => ⟨S850000, .i1⟩
  | .hbm, ⟨29, _⟩ => ⟨S_, .i32⟩
  | .hbm, ⟨30, _⟩ => ⟨S850000, .i32⟩
  | .hbm, ⟨31, _⟩ => ⟨S850000, .i32⟩
  | .hbm, ⟨32, _⟩ => ⟨S850000, .i32⟩
  | .hbm, ⟨33, _⟩ => ⟨S850000x1, .i32⟩
  | .hbm, ⟨34, _⟩ => ⟨S850000x64, .f32⟩
  | .hbm, ⟨35, _⟩ => ⟨S_, .f32⟩
  | .hbm, ⟨36, _⟩ => ⟨S50000x64, .f32⟩
  | .hbm, ⟨37, _⟩ => ⟨S850000x1, .i32⟩
  | .hbm, ⟨38, _⟩ => ⟨S50000x64, .f32⟩
  | .hbm, ⟨39, _⟩ => ⟨S1x64, .f32⟩
  | .hbm, ⟨40, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S1x64, .f32⟩
  | .local _ .vmem, ⟨12, _⟩ => ⟨S5000x1, .f32⟩
  | .local _ .vmem, ⟨13, _⟩ => ⟨S5000x1, .f32⟩
  | .local _ .vmem, ⟨14, _⟩ => ⟨S5000x64, .f32⟩
  | .local _ .vmem, ⟨15, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S850000x1_S850000_n_0_0_1_wf : ScatterDims.WF S50000 S850000x1 S850000 [] [0] [0] 1
  dot_S5000x64_S64x64_S5000x64_1_0_0_1_n_n_wf : DotDims.WF S5000x64 S64x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S50000x1.size a
  hwx1_3 : ∀ i : grid1.Coords, EltTy.bits .f32 = 32 ∨ (Rect.block (s := S50000x1) S5000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v29) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩

abbrev nBuf : Space → Nat
  | .hbm => 68
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S50000, .i32⟩
  | .hbm, ⟨5, _⟩ => ⟨S1x800000, .i32⟩
  | .hbm, ⟨6, _⟩ => ⟨S800000, .i32⟩
  | .hbm, ⟨7, _⟩ => ⟨S850000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S_, .f32⟩
  | .hbm, ⟨12, _⟩ => ⟨S850000, .f32⟩
  | .hbm, ⟨13, _⟩ => ⟨S_, .f32⟩
  | .hbm, ⟨14, _⟩ => ⟨S50000, .f32⟩
  | .hbm, ⟨15, _⟩ => ⟨S850000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S850000, .i32⟩
  | .hbm, ⟨26, _⟩ => ⟨S850000, .i1⟩
  | .hbm, ⟨27, _⟩ => ⟨S_, .i32⟩
  | .hbm, ⟨28, _⟩ => ⟨S850000, .i32⟩
  | .hbm, ⟨29, _⟩ => ⟨S850000, .i32⟩
  | .hbm, ⟨30, _⟩ => ⟨S850000, .i32⟩
  | .hbm, ⟨31, _⟩ => ⟨S850000x1, .i32⟩
  | .hbm, ⟨32, _⟩ => ⟨S850000, .f32⟩
  | .hbm, ⟨33, _⟩ => ⟨S850000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S850000, .f32⟩
  | .hbm, ⟨44, _⟩ => ⟨S50000x64, .f32⟩
  | .hbm, ⟨45, _⟩ => ⟨S850000x1, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000x64, .f32⟩
  | .hbm, ⟨55, _⟩ => ⟨S850000x64, .f32⟩
  | .hbm, ⟨56, _⟩ => ⟨S850000x64, .f32⟩
  | .hbm, ⟨57, _⟩ => ⟨S_, .f32⟩
  | .hbm, ⟨58, _⟩ => ⟨S50000x64, .f32⟩
  | .hbm, ⟨59, _⟩ => ⟨S850000x1, .i32⟩
  | .hbm, ⟨60, _⟩ => ⟨S50000x64, .f32⟩
  | .hbm, ⟨61, _⟩ => ⟨S1x64, .f32⟩
  | .hbm, ⟨62, _⟩ => ⟨S50000x64, .f32⟩
  | .hbm, ⟨63, _⟩ => ⟨S50000x64, .f32⟩
  | .hbm, ⟨64, _⟩ => ⟨S_, .f32⟩
  | .hbm, ⟨65, _⟩ => ⟨S50000x64, .f32⟩
  | .hbm, ⟨66, _⟩ => ⟨S50000x64, .f32⟩
  | .hbm, ⟨67, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_6 : Ref sig .tc := ⟨.hbm, 46, rfl⟩
abbrev main_v34 : Ref sig .tc := ⟨.hbm, 47, rfl⟩
abbrev main_v35 : Ref sig .tc := ⟨.hbm, 48, rfl⟩
abbrev main_c_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_8 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_call1_cst : Ref sig .tc := ⟨.hbm, 64, rfl⟩
abbrev main_call1_v0 : Ref sig .tc := ⟨.hbm, 65, rfl⟩
abbrev main_v49 : Ref sig .tc := ⟨.hbm, 66, rfl⟩
abbrev main_v50 : Ref sig .tc := ⟨.hbm, 67, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x64_S50000x64_1_0_0_1_n_n_wf : DotDims.WF S50000x64 S64x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The idealized kernel program's run with its RESULT named: every weakly fair execution of @main terminates, and in
  the final state the result array `main_v29` holds what the second region's write-backs leave of it — the contents
  `W6` of the last segment boundary, read at the result's buffer — while the four argument arrays are as launched.
  The program is six segments (three stretches of host operations, the first region, one more stretch, the second
  region); the thread state after the last one holds every unscoped buffer at the boundary's contents, and the result
  buffer is one of them.
-/
import proofs.«113441_j88527865905437_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run of the segments from the launch memory: the last thread state, read against the final state, gives the
    result buffer at the last boundary's contents and each argument array at its launch contents. -/
theorem run_out : θ_run defs (onTc (τ := τ) (main (F := F))) ⟨m, fun _ => 0, ρ⟩ (fun r => ∀ c : Dev nD,
      r.2.mem ((c.tc : Thread nD τ).loc main_v29) = W6 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v29 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩)

end Cert.KernelIdeal.Run

end
-- ==== Proof.LinearPayload.lean ====
/- The linear layer's block computation read at an index, over the extended reals: the rounding of the two matrix
   operands to bf16 is the identity there, the product into a zero accumulator is the plain sum over the
   contraction coordinate, and the per-row scale is one column broadcast along the lanes. -/
import proofs.«113441_j88527865905437_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Linear

open Cert.KernelIdeal Cert.KernelIdeal.Gen Idealize.ShloMosaic Idealize.ShloMosaic.TcCoe Idealize.SL.Sem
open Idealize.ShloMosaic.ValueIdx

/-- The scaled linear map as ONE function of the three arrays: row n of x times the matrix w, every entry of the
    row scaled by the row's own factor d[n, 0]. -/
def linearOut (x : S50000x64.Idx → EReal) (w : S64x64.Idx → EReal) (d : S50000x1.Idx → EReal) : S50000x64.Idx → EReal :=
  fun i => (∑ k : Fin 64, x (ix2 (i 0) k) * w (ix2 k (i 1))) * d (ix2 (i 0) (0 : Fin 1))

/-- Read at row n and column j. -/
theorem linearOut_apply (x : S50000x64.Idx → EReal) (w : S64x64.Idx → EReal) (d : S50000x1.Idx → EReal) (n : Fin 50000) (j : Fin 64) :
    linearOut x w d (ix2 n j) = (∑ k : Fin 64, x (ix2 n k) * w (ix2 k j)) * d (ix2 n (0 : Fin 1)) := rfl

/-- ONE COLUMN broadcast along the lanes: an [a, 1] array broadcast to [a, b] reads, at (p, c), the column's entry
    of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product's left operand index at output (i, ·) and contraction coordinate q: row i 0 ... -/
theorem lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- ... column q; -/
theorem lhs_col (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- the right operand's: row q ... -/
theorem rhs_row (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- ... column i 1. -/
theorem rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- THE BLOCK PRODUCT into a zero accumulator, read at (p, q): the sum over k of lhs[p, k] · rhs[k, q]. -/
theorem matmul_zero_apply (lhs : FVec Ideal S5000x64 .bf16) (rhs : FVec Ideal S64x64 .bf16) (p : Fin 5000) (q : Fin 64) :
    matmul dot_S5000x64_S64x64_S5000x64_1_0_0_1_n_n none lhs rhs (constant (F := Ideal) S5000x64 .f32 0x00000000#32) (ix2 p q)
      = ∑ k : Fin 64, lhs (ix2 p k) * rhs (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_row _ _
    | ⟨1, _⟩ => exact (lhs_col _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_row _ _).trans hk
    | ⟨1, _⟩ => exact rhs_col _ _)
  rw [el, er]

/-- THE BLOCK'S PAYLOAD at (p, q): the sum over k of x[p, k] · w[k, q], times the row's factor d[p, 0]. -/
theorem payload_apply (x : Vec Ideal S5000x64 .f32) (w : Vec Ideal S64x64 .f32) (d : Vec Ideal S5000x1 .f32) (p : Fin 5000) (q : Fin 64) :
    k0_pay1 (F := Ideal) x w d (ix2 p q) = (∑ k : Fin 64, x (ix2 p k) * w (ix2 k q)) * d (ix2 p (0 : Fin 1)) := by
  unfold k0_pay1
  refine (mulf_apply _ _ _).trans ?_
  rw [matmul_zero_apply, shapeCast_self, broadcastTo_a1_ab_apply]
  rfl

end Cert.KernelIdeal.Linear

end
-- ==== Proof.KernelTerms.lean ====
/-
  The host side of the idealized kernel program, as named functions of the four argument arrays: the source and
  destination node of every edge (the given edges followed by one self-loop per node), the degree of every node (the
  number of edges landing on it, summed as ones), its inverse root where the degree is positive and zero elsewhere, the
  source indices with a negative index normalised, the transformed and source-scaled rows, their aggregate over the
  edges landing on each node, and the bias as a one-row array. The first region computes `scaledRows`, the second one the
  result from `aggregate`; the stretches of host operations between them compute the rest.
-/
import proofs.«113441_j88527865905437_2_alg».proof.Proof.LinearPayload

noncomputable section

namespace Cert.KernelIdeal.Terms

open Cert.KernelIdeal Cert.KernelIdeal.Gen Idealize.ShloMosaic

/-- The source node of every edge: row 0 of the edge list, then the self-loops 0 … 49999. -/
def srcNode (x1 : IVec S2x800000 32) : IVec S850000 32 :=
  concatenate S850000 0 [⟨S800000, shapeCast S800000 (extractStridedSlice S1x800000 ![0, 0] x1 slices_S2x800000_S1x800000_0_0) shapeCasts_S1x800000_S800000⟩, ⟨S50000, iotaInDim S50000 32 0⟩] concatenates_S800000_S50000_S850000_d0

/-- The destination node of every edge: row 1 of the edge list, then the self-loops. -/
def dstNode (x1 : IVec S2x800000 32) : IVec S850000 32 :=
  concatenate S850000 0 [⟨S800000, shapeCast S800000 (extractStridedSlice S1x800000 ![1, 0] x1 slices_S2x800000_S1x800000_1_0) shapeCasts_S1x800000_S800000⟩, ⟨S50000, iotaInDim S50000 32 0⟩] concatenates_S800000_S50000_S850000_d0

/-- The degree of every node: ones summed over the edges landing on it. -/
def degree (x1 : IVec S2x800000 32) : FVec Ideal S50000 .f32 :=
  Host.scatterAdd scatter_S50000_S850000x1_S850000_n_0_0_1 (broadcastInDim S50000 ![] bcast_S_S50000 (constant (F := Ideal) S_ .f32 0x00000000#32))
    (broadcastInDim S850000x1 ![0] bcast_S850000_S850000x1_0 (dstNode x1)) (broadcastInDim S850000 ![] bcast_S_S850000 (constant (F := Ideal) S_ .f32 0x3F800000#32))

/-- The inverse root degree: `rsqrt` of the degree where it is positive, zero elsewhere. -/
def invSqrtDeg (x1 : IVec S2x800000 32) : FVec Ideal S50000 .f32 :=
  select (cmpf .ogt (degree x1) (broadcastInDim S50000 ![] bcast_S_S50000 (constant (F := Ideal) S_ .f32 0x00000000#32))) (Host.rsqrt (degree x1))
    (broadcastInDim S50000 ![] bcast_S_S50000 (constant (F := Ideal) S_ .f32 0x00000000#32))

/-- The same as a column, the form both regions read it in. -/
def invSqrtDegCol (x1 : IVec S2x800000 32) : FVec Ideal S50000x1 .f32 :=
  shapeCast S50000x1 (invSqrtDeg x1) shapeCasts_S50000_S50000x1

/-- The source indices with a negative one moved up by the number of nodes. -/
def srcNorm (x1 : IVec S2x800000 32) : IVec S850000 32 :=
  select (cmpi .slt (srcNode x1) (broadcastInDim S850000 ![] bcast_S_S850000 (constantI S_ 32 0#32)))
    (addi (srcNode x1) (broadcastInDim S850000 ![] bcast_S_S850000 (constantI S_ 32 50000#32))) (srcNode x1)

/-- What the first region leaves: the rows of `x @ W`, each scaled by its node's inverse root degree. -/
def scaledRows (x0 : FVec Ideal S50000x64 .f32) (x1 : IVec S2x800000 32) (x2 : FVec Ideal S64x64 .f32) : FVec Ideal S50000x64 .f32 :=
  Linear.linearOut x0 x2 (invSqrtDegCol x1)

/-- The scaled rows gathered at every edge's source. -/
def gathered (x0 : FVec Ideal S50000x64 .f32) (x1 : IVec S2x800000 32) (x2 : FVec Ideal S64x64 .f32) : FVec Ideal S850000x64 .f32 :=
  Host.gather gather_S50000x64_S850000x1_S850000x64_1_0_n_n_0_1_164 (scaledRows x0 x1 x2) (broadcastInDim S850000x1 ![0] bcast_S850000_S850000x1_0 (srcNorm x1))

/-- Their aggregate: for every node, the sum of the gathered rows over the edges landing on it. -/
def aggregate (x0 : FVec Ideal S50000x64 .f32) (x1 : IVec S2x800000 32) (x2 : FVec Ideal S64x64 .f32) : FVec Ideal S50000x64 .f32 :=
  Host.scatterAdd scatter_S50000x64_S850000x1_S850000x64_1_0_0_1 (broadcastInDim S50000x64 ![] bcast_S_S50000x64 (constant (F := Ideal) S_ .f32 0x00000000#32))
    (broadcastInDim S850000x1 ![0] bcast_S850000_S850000x1_0 (dstNode x1)) (gathered x0 x1 x2)

/-- The bias as a one-row array. -/
def biasRow (x3 : FVec Ideal S64 .f32) : FVec Ideal S1x64 .f32 :=
  shapeCast S1x64 x3 shapeCasts_S64_S1x64

end Cert.KernelIdeal.Terms

end
-- ==== Proof.KernelTermsF.lean ====
/-
  The host stretches of the kernel program once more, as functions of the argument arrays at ANY float instance: the
  same definitions as the extended-real ones (source and destination node of every edge, degree, inverse root degree and
  its column form, normalised source indices, the bias as a one-row array), each equal to its extended-real namesake by
  unfolding. A host stretch's buffer contents are read off the program at a generic instance, where nothing computes, and
  specialised afterwards.
-/
import proofs.«113441_j88527865905437_2_alg».proof.Proof.KernelTerms
import proofs.«113441_j88527865905437_2_alg».proof.Proof.LinearPayload

noncomputable section

namespace Cert.KernelIdeal.TermsF

open Cert.KernelIdeal Cert.KernelIdeal.Gen Idealize.ShloMosaic

variable {F : FTy → Type} [FloatOps F]

/-- The source node of every edge: row 0 of the edge list, then the self-loops 0 … 49999. -/
def srcNode (x1 : IVec S2x800000 32) : IVec S850000 32 :=
  concatenate S850000 0 [⟨S800000, shapeCast S800000 (extractStridedSlice S1x800000 ![0, 0] x1 slices_S2x800000_S1x800000_0_0) shapeCasts_S1x800000_S800000⟩, ⟨S50000, iotaInDim S50000 32 0⟩] concatenates_S800000_S50000_S850000_d0

/-- The destination node of every edge: row 1 of the edge list, then the self-loops. -/
def dstNode (x1 : IVec S2x800000 32) : IVec S850000 32 :=
  concatenate S850000 0 [⟨S800000, shapeCast S800000 (extractStridedSlice S1x800000 ![1, 0] x1 slices_S2x800000_S1x800000_1_0) shapeCasts_S1x800000_S800000⟩, ⟨S50000, iotaInDim S50000 32 0⟩] concatenates_S800000_S50000_S850000_d0

/-- The degree of every node: ones summed over the edges landing on it. -/
def degree (F : FTy → Type) [FloatOps F] (x1 : IVec S2x800000 32) : FVec F S50000 .f32 :=
  Host.scatterAdd scatter_S50000_S850000x1_S850000_n_0_0_1 (broadcastInDim S50000 ![] bcast_S_S50000 (constant (F := F) S_ .f32 0x00000000#32))
    (broadcastInDim S850000x1 ![0] bcast_S850000_S850000x1_0 (dstNode x1)) (broadcastInDim S850000 ![] bcast_S_S850000 (constant (F := F) S_ .f32 0x3F800000#32))

/-- The inverse root degree: `rsqrt` of the degree where it is positive, zero elsewhere. -/
def invSqrtDeg (F : FTy → Type) [FloatOps F] (x1 : IVec S2x800000 32) : FVec F S50000 .f32 :=
  select (cmpf .ogt (degree F x1) (broadcastInDim S50000 ![] bcast_S_S50000 (constant (F := F) S_ .f32 0x00000000#32))) (Host.rsqrt (degree F x1))
    (broadcastInDim S50000 ![] bcast_S_S50000 (constant (F := F) S_ .f32 0x00000000#32))

/-- The same as a column, the form both regions read it in. -/
def invSqrtDegCol (F : FTy → Type) [FloatOps F] (x1 : IVec S2x800000 32) : FVec F S50000x1 .f32 :=
  shapeCast S50000x1 (invSqrtDeg F x1) shapeCasts_S50000_S50000x1

/-- The source indices with a negative one moved up by the number of nodes. -/
def srcNorm (x1 : IVec S2x800000 32) : IVec S850000 32 :=
  select (cmpi .slt (srcNode x1) (broadcastInDim S850000 ![] bcast_S_S850000 (constantI S_ 32 0#32)))
    (addi (srcNode x1) (broadcastInDim S850000 ![] bcast_S_S850000 (constantI S_ 32 50000#32))) (srcNode x1)

/-- The bias as a one-row array. -/
def biasRow (x3 : FVec F S64 .f32) : FVec F S1x64 .f32 :=
  shapeCast S1x64 x3 shapeCasts_S64_S1x64

/-! ## At the extended reals these are the definitions of `Terms` -/

theorem srcNode_eq (x1 : IVec S2x800000 32) : srcNode x1 = Terms.srcNode x1 := rfl
theorem dstNode_eq (x1 : IVec S2x800000 32) : dstNode x1 = Terms.dstNode x1 := rfl
theorem srcNorm_eq (x1 : IVec S2x800000 32) : srcNorm x1 = Terms.srcNorm x1 := rfl
theorem invSqrtDegCol_eq (x1 : IVec S2x800000 32) : invSqrtDegCol Ideal x1 = Terms.invSqrtDegCol x1 := rfl
theorem biasRow_eq (x3 : FVec Ideal S64 .f32) : biasRow x3 = Terms.biasRow x3 := rfl

end Cert.KernelIdeal.TermsF

end
-- ==== Proof.LinearBlocks.lean ====
/- From blocks to the array, for the linear layer: what each of the ten grid points writes back is its 5000 rows of
   ONE whole-array function of the three input arrays (the scaled linear map), and the ten row blocks cover the
   output array, so after the region the output array IS that function of the region's input arrays. -/
import proofs.«113441_j88527865905437_2_alg».proof.Proof.Gen.KernelIdeal.Frame
import proofs.«113441_j88527865905437_2_alg».proof.Proof.LinearPayload
import Idealize.ShloMosaic.Lib.ValueIdx
import Idealize.ShloMosaic.Lib.Pipeline.Value

noncomputable section

namespace Cert.KernelIdeal.Linear

open Cert.KernelIdeal Cert.KernelIdeal.Gen Idealize.ShloMosaic Idealize.ShloMosaic.TcCoe Idealize.SL.Sem
open Idealize.ShloMosaic.Pipeline (Dat)
open Idealize.ShloMosaic.ValueIdx

-- the buffer contents when the region is entered: arbitrary
variable (V : (c : Dev nD) → (b : Ref sig .tc) → Buf (Elt Ideal) ((c : Thread nD τ).loc b))

/-- The whole-buffer rectangle's offsets are zero on both axes. -/
theorem zero_offsets : (![0, 0] : Fin 2 → Nat) = fun _ => 0 := funext fun a => by fin_cases a <;> rfl

/-- The four index maps, decided over the ten grid points: at point t the row operand x, the column d and the
    output are all at row block t (column block 0), and the matrix w is always at block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- ONE ELEMENT OF ONE BLOCK. If x is rows 5000·b … 5000·b + 4999 of X, d the same rows of the column D, and w all
    of W, then the block's payload at (p, q) is the scaled linear map of X, W, D at (5000·b + p, q). -/
theorem block_point (x : Vec Ideal S5000x64 .f32) (w : Vec Ideal S64x64 .f32) (d : Vec Ideal S5000x1 .f32)
    (X : S50000x64.Idx → EReal) (W : S64x64.Idx → EReal) (D : S50000x1.Idx → EReal) (b : ℕ)
    (hx : ∀ (y : S5000x64.Idx) (i : S50000x64.Idx), (i 0).val = b * 5000 + (y 0).val → (i 1).val = (y 1).val → x y = X i)
    (hw : ∀ y : S64x64.Idx, w y = W y)
    (hd : ∀ (y : S5000x1.Idx) (i : S50000x1.Idx), (i 0).val = b * 5000 + (y 0).val → (i 1).val = (y 1).val → d y = D i)
    (y : S5000x64.Idx) (i : S50000x64.Idx) (hi0 : (i 0).val = b * 5000 + (y 0).val) (hi1 : (i 1).val = (y 1).val) :
    k0_pay1 (F := Ideal) x w d y = linearOut X W D i := by
  obtain ⟨p, q, rfl⟩ : ∃ (p : Fin 5000) (q : Fin 64), y = ix2 p q := ⟨y 0, y 1, eq_ix2 y⟩
  obtain ⟨n, j, rfl⟩ : ∃ (n : Fin 50000) (j : Fin 64), i = ix2 n j := ⟨i 0, i 1, eq_ix2 i⟩
  have hn : n.val = b * 5000 + p.val := hi0
  have hj : j = q := Fin.ext hi1
  subst hj
  rw [payload_apply, linearOut_apply, hd (ix2 p (0 : Fin 1)) (ix2 n (0 : Fin 1)) hn rfl]
  refine congrArg (· * _) (Finset.sum_congr rfl fun k _ => ?_)
  rw [hx (ix2 p k) (ix2 n k) hn rfl, hw]

/-- The row operand's block at point t is rows 5000·t … 5000·t + 4999 of its array. -/
theorem rows_block (c : Dev nD) (t : Fin cfg0.N) (y : S5000x64.Idx) (i : S50000x64.Idx)
    (hi0 : (i 0).val = t.val * 5000 + (y 0).val) (hi1 : (i 1).val = (y 1).val) :
    (iblk0 V c 0 t : Vec Ideal S5000x64 .f32) y = (V c main_arg0 : S50000x64.Idx → EReal) i := by
  obtain ⟨e0, e1, -⟩ := block_indices t
  show (V c main_arg0 : S50000x64.Idx → EReal) (((cfg0.win 0).blk t).view.emb y) = _
  refine congrArg (V c main_arg0 : S50000x64.Idx → EReal) (funext fun a => Fin.ext ?_)
  match a with
  | ⟨0, _⟩ => show win0_0.index t (0 : Fin 2) * 5000 + 1 * (y 0).val = (i 0).val; omega
  | ⟨1, _⟩ => show win0_0.index t (1 : Fin 2) * 64 + 1 * (y 1).val = (i 1).val; omega

/-- The matrix's block at every point is the whole matrix. -/
theorem matrix_block (c : Dev nD) (t : Fin cfg0.N) (y : S64x64.Idx) :
    (iblk0 V c 1 t : Vec Ideal S64x64 .f32) y = (V c main_arg2 : S64x64.Idx → EReal) y := by
  obtain ⟨-, -, e0, e1, -⟩ := block_indices t
  show (V c main_arg2 : S64x64.Idx → EReal) (((cfg0.win 1).blk t).view.emb y) = _
  refine congrArg (V c main_arg2 : S64x64.Idx → EReal) (funext fun a => Fin.ext ?_)
  match a with
  | ⟨0, _⟩ => show win0_1.index t (0 : Fin 2) * 64 + 1 * (y 0).val = (y 0).val; omega
  | ⟨1, _⟩ => show win0_1.index t (1 : Fin 2) * 64 + 1 * (y 1).val = (y 1).val; omega

/-- The scale column's block at point t is rows 5000·t … 5000·t + 4999 of the column. -/
theorem column_block (c : Dev nD) (t : Fin cfg0.N) (y : S5000x1.Idx) (i : S50000x1.Idx)
    (hi0 : (i 0).val = t.val * 5000 + (y 0).val) (hi1 : (i 1).val = (y 1).val) :
    (iblk0 V c 2 t : Vec Ideal S5000x1 .f32) y = (V c main_v16 : S50000x1.Idx → EReal) i := by
  obtain ⟨-, -, -, -, e0, e1, -⟩ := block_indices t
  show (V c main_v16 : S50000x1.Idx → EReal) (((cfg0.win 2).blk t).view.emb y) = _
  refine congrArg (V c main_v16 : S50000x1.Idx → EReal) (funext fun a => Fin.ext ?_)
  match a with
  | ⟨0, _⟩ => show win0_2.index t (0 : Fin 2) * 5000 + 1 * (y 0).val = (i 0).val; omega
  | ⟨1, _⟩ => show win0_2.index t (1 : Fin 2) * 1 + 1 * (y 1).val = (i 1).val; omega

/-- WHAT POINT t WRITES BACK is rows 5000·t … 5000·t + 4999 of the scaled linear map of the three arrays as the
    region finds them. -/
theorem written_block (c : Dev nD) (t : Fin cfg0.N) :
    (dat0 (F := Ideal) V c).flushed 3 t
      = ((cfg0.win 3).blk t).view.read (Elt Ideal) (linearOut (V c main_arg0) (V c main_arg2) (V c main_v16)) := by
  show (cfg0.win 3).cut (grid0.coords t) ((dat0 V c).after 3 t) = _
  rw [after0_3]
  unfold out0_3
  rw [View.canon_unit_zero zero_offsets]
  simp only [View.ld_unit_zero (S := S5000x64) zero_offsets, View.ld_unit_zero (S := S64x64) zero_offsets,
    View.ld_unit_zero (S := S5000x1) zero_offsets]
  obtain ⟨-, -, -, -, -, -, e0, e1⟩ := block_indices t
  funext y
  refine block_point (iblk0 V c 0 t) (iblk0 V c 1 t) (iblk0 V c 2 t) _ _ _ t.val
    (rows_block V c t) (matrix_block V c t) (column_block V c t) _ _ ?_ ?_
  · show win0_3.index t (0 : Fin 2) * 5000 + 1 * (y 0).val = t.val * 5000 + (y 0).val; omega
  · show win0_3.index t (1 : Fin 2) * 64 + 1 * (y 1).val = (y 1).val; omega

/-- An index of the output array is in point t's block iff each coordinate is in the block's range on its axis. -/
theorem mem_block (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v17).slice (win0_3.rect t)).set ↔ _
  rw [View.set_slice_whole, Rect.mem_set_unit]
  exact Iff.rfl

/-- THE TEN ROW BLOCKS COVER THE ARRAY: row r is in the block of point r / 5000. -/
theorem blocks_cover (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  have hN : cfg0.N = 10 := N_0
  have hlt : (i 0).val / 5000 < cfg0.N := by rw [hN]; omega
  obtain ⟨t, ht⟩ : ∃ t : Fin cfg0.N, t.val = (i 0).val / 5000 := ⟨⟨_, hlt⟩, rfl⟩
  obtain ⟨-, -, -, -, -, -, e0, e1⟩ := block_indices t
  refine ⟨t, flush0_3 t, ?_⟩
  rw [mem_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- THE OUTPUT ARRAY AFTER THE REGION is the scaled linear map of the region's three input arrays. -/
theorem final0 (c : Dev nD) :
    (dat0 (F := Ideal) V c).arrAt 3 cfg0.N
      = linearOut (V c (Pipeline.arrRef spec0 0)) (V c (Pipeline.arrRef spec0 1)) (V c (Pipeline.arrRef spec0 2)) :=
  (dat0 V c).arrAt_eq_of_cover 3 (linearOut (V c main_arg0) (V c main_arg2) (V c main_v16))
    (fun t _ => written_block V c t) blocks_cover

end Cert.KernelIdeal.Linear

end
-- ==== Proof.EpiloguePayload.lean ====
/-
  The epilogue region's result as one function of its four input arrays, and its kernel body's stored value read at an index.

  With `agg` the aggregate, `x` the features, `b` the bias row and `d` the column of scales, the result at row `n`,
  lane `j` is `max (d n · agg n j + b j) 0 + x n j` over the extended reals: a scaled aggregate, shifted by the bias,
  clamped below at zero, with the features added back.
-/
import proofs.«113441_j88527865905437_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Epilogue

open Cert.KernelIdeal Cert.KernelIdeal.Gen Idealize.ShloMosaic Idealize.ShloMosaic.ValueIdx

/-! ## The result as one function of the arrays -/

/-- The epilogue's result array: at row `n` and lane `j`, the aggregate scaled by row `n`'s scale, plus lane `j`'s bias,
    clamped below at zero, plus the features. The row and lane are read off the index as literal-range coordinates. -/
def epilogueOut (agg x : S50000x64.Idx → EReal) (b : S1x64.Idx → EReal) (d : S50000x1.Idx → EReal) :
    S50000x64.Idx → EReal := fun i =>
  max (d (ix2 (⟨(i 0).val, idx2_lt0 i⟩ : Fin 50000) (0 : Fin 1)) * agg i
        + b (ix2 (0 : Fin 1) (⟨(i 1).val, idx2_lt1 i⟩ : Fin 64))) 0 + x i

/-- The result at row `n`, lane `j`. -/
theorem epilogueOut_apply (agg x : S50000x64.Idx → EReal) (b : S1x64.Idx → EReal) (d : S50000x1.Idx → EReal)
    (n : Fin 50000) (j : Fin 64) :
    epilogueOut agg x b d (ix2 n j)
      = max (d (ix2 n (0 : Fin 1)) * agg (ix2 n j) + b (ix2 (0 : Fin 1) j)) 0 + x (ix2 n j) := rfl

/-- The result at any index, the scale and the bias read at ANY indices on the same row, respectively the same lane:
    the scale column has one lane and the bias one row, so those indices are determined. -/
theorem epilogueOut_eq (agg x : S50000x64.Idx → EReal) (b : S1x64.Idx → EReal) (d : S50000x1.Idx → EReal)
    (i : S50000x64.Idx) (kd : S50000x1.Idx) (kb : S1x64.Idx)
    (hd : (kd 0).val = (i 0).val) (hb : (kb 1).val = (i 1).val) :
    epilogueOut agg x b d i = max (d kd * agg i + b kb) 0 + x i := by
  have ed : kd = ix2 (⟨(i 0).val, idx2_lt0 i⟩ : Fin 50000) (0 : Fin 1) := by
    funext a; apply Fin.ext
    match a with
    | ⟨0, _⟩ => exact hd
    | ⟨1, _⟩ => have := idx2_lt1 kd; show (kd 1).val = 0; omega
  have eb : kb = ix2 (0 : Fin 1) (⟨(i 1).val, idx2_lt1 i⟩ : Fin 64) := by
    funext a; apply Fin.ext
    match a with
    | ⟨0, _⟩ => have := idx2_lt0 kb; show (kb 0).val = 0; omega
    | ⟨1, _⟩ => exact hb
  rw [ed, eb]; rfl

/-! ## The kernel body's stored value at an index -/

/-- One column broadcast over many lanes: an `[a, 1]` array broadcast to `[a, b]` reads, at `(p, c)`, the operand's row
    `p` at its one lane. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The value the body stores, at row `p` and lane `q` of the block: the scale block's row `p` times the aggregate block,
    plus the bias at lane `q`, clamped below at zero, plus the feature block. Every operation is pointwise but the two
    broadcasts (the scale column over the lanes, the bias row over the rows); the casts are to the same shapes. -/
theorem payload_apply (v0 : Vec Ideal S5000x1 .f32) (v2 : Vec Ideal S5000x64 .f32) (v6 : Vec Ideal S1x64 .f32)
    (v12 : Vec Ideal S5000x64 .f32) (p : Fin 5000) (q : Fin 64) :
    k1_pay1 (F := Ideal) v0 v2 v6 v12 (ix2 p q)
      = max (v0 (ix2 p (0 : Fin 1)) * v2 (ix2 p q) + v6 (ix2 (0 : Fin 1) q)) 0 + v12 (ix2 p q) := by
  unfold k1_pay1
  simp only [shapeCast_self]
  show max (broadcastTo S5000x64 v0 broadcasts_S5000x1_S5000x64 (ix2 p q) * v2 (ix2 p q)
      + broadcastTo S5000x64 v6 broadcasts_S1x64_S5000x64 (ix2 p q)) (Ideal.ofBits .f32 0x00000000#32) + v12 (ix2 p q) = _
  rw [broadcastTo_a1_ab_apply, broadcastTo_1b_ab_apply, Ideal.ofBits_zero_f32]

end Cert.KernelIdeal.Epilogue

end
-- ==== Proof.EpilogueBlocks.lean ====
/-
  From blocks to the array, for the epilogue region: the region's output array after its ten grid points, as ONE function
  (`epilogueOut`) of the region's four input arrays as the region finds them.

  Each of the ten points handles 5000 consecutive rows: it reads rows `5000·t … 5000·t + 4999` of the aggregate, of the
  features and of the scale column, the whole bias row, and writes the same rows of the output. So what point `t` writes
  back is rows `5000·t …` of `epilogueOut` of the whole arrays, and the ten row bands cover the array: row `r` lies in
  the band of point `r / 5000`.
-/
import proofs.«113441_j88527865905437_2_alg».proof.Proof.Gen.KernelIdeal.Frame
import proofs.«113441_j88527865905437_2_alg».proof.Proof.EpiloguePayload
import Idealize.ShloMosaic.Lib.ValueIdx
import Idealize.ShloMosaic.Lib.Pipeline.Value

noncomputable section

namespace Cert.KernelIdeal.Epilogue

open Cert.KernelIdeal Cert.KernelIdeal.Gen Idealize.ShloMosaic Idealize.ShloMosaic.TcCoe Idealize.SL.Sem
open Idealize.ShloMosaic.ValueIdx
open Idealize.ShloMosaic.Pipeline (Dat)

-- the region's buffer contents when it is entered: arbitrary
variable (V : (c : Dev nD) → (b : Ref sig .tc) → Buf (Elt Ideal) ((c : Thread nD τ).loc b))

/-! ## One block's value, over variables

The stored value of a point whose blocks are the arrays read at row offset `5000·T` (the bias block the whole bias row)
is `epilogueOut` of the arrays read at the same offset. Stated over arbitrary index maps with their coordinates as
hypotheses; a grid point's five blocks are one instance. -/

theorem block_value (agg x : S50000x64.Idx → EReal) (b : S1x64.Idx → EReal) (d : S50000x1.Idx → EReal) (T : Nat)
    (e0 e1 e4 : S5000x64.Idx → S50000x64.Idx) (e2 : S1x64.Idx → S1x64.Idx) (e3 : S5000x1.Idx → S50000x1.Idx)
    (h0 : ∀ y, ((e0 y) 0).val = T * 5000 + (y 0).val ∧ ((e0 y) 1).val = (y 1).val)
    (h1 : ∀ y, ((e1 y) 0).val = T * 5000 + (y 0).val ∧ ((e1 y) 1).val = (y 1).val)
    (h2 : ∀ y, ((e2 y) 1).val = (y 1).val)
    (h3 : ∀ y, ((e3 y) 0).val = T * 5000 + (y 0).val)
    (h4 : ∀ y, ((e4 y) 0).val = T * 5000 + (y 0).val ∧ ((e4 y) 1).val = (y 1).val)
    (j : S5000x64.Idx) :
    k1_pay1 (F := Ideal) (fun y => d (e3 y)) (fun y => agg (e0 y)) (fun y => b (e2 y)) (fun y => x (e1 y)) j
      = epilogueOut agg x b d (e4 j) := by
  obtain ⟨p, q, rfl⟩ : ∃ (p : Fin 5000) (q : Fin 64), j = ix2 p q := ⟨j 0, j 1, eq_ix2 j⟩
  have e04 : e0 (ix2 p q) = e4 (ix2 p q) := by
    funext a; apply Fin.ext
    match a with
    | ⟨0, _⟩ => exact (h0 _).1.trans (h4 _).1.symm
    | ⟨1, _⟩ => exact (h0 _).2.trans (h4 _).2.symm
  have e14 : e1 (ix2 p q) = e4 (ix2 p q) := by
    funext a; apply Fin.ext
    match a with
    | ⟨0, _⟩ => exact (h1 _).1.trans (h4 _).1.symm
    | ⟨1, _⟩ => exact (h1 _).2.trans (h4 _).2.symm
  have r3 : ((e3 (ix2 p (0 : Fin 1))) 0).val = T * 5000 + p.val := h3 _
  have r4 : ((e4 (ix2 p q)) 0).val = T * 5000 + p.val := (h4 _).1
  have l2 : ((e2 (ix2 (0 : Fin 1) q)) 1).val = q.val := h2 _
  have l4 : ((e4 (ix2 p q)) 1).val = q.val := (h4 _).2
  rw [payload_apply, epilogueOut_eq agg x b d (e4 (ix2 p q)) (e3 (ix2 p (0 : Fin 1))) (e2 (ix2 (0 : Fin 1) q))
    (r3.trans r4.symm) (l2.trans l4.symm)]
  show max (d (e3 (ix2 p (0 : Fin 1))) * agg (e0 (ix2 p q)) + b (e2 (ix2 (0 : Fin 1) q))) 0 + x (e1 (ix2 p q)) = _
  rw [e04, e14]

/-! ## The grid's index maps -/

theorem zero_offsets : (![0, 0] : Fin 2 → Nat) = fun _ => 0 := funext fun a => by fin_cases a <;> rfl

/-- The printed index maps, decided over the ten points: the aggregate's, the features', the scale column's and the
    output's block index is `(t, 0)`, the bias row's `(0, 0)`. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-! ## What a point writes back -/

/-- WHAT POINT `t` WRITES BACK is block `t` of `epilogueOut` of the four input arrays as the region finds them. -/
theorem flushed_eq (c : Dev nD) (t : Fin cfg1.N) :
    (dat1 V c).flushed 4 t = ((cfg1.win 4).blk t).view.read (Elt Ideal)
      (epilogueOut (V c (Pipeline.arrRef spec1 0)) (V c (Pipeline.arrRef spec1 1)) (V c (Pipeline.arrRef spec1 2))
        (V c (Pipeline.arrRef spec1 3))) := by
  show (cfg1.win 4).cut (grid1.coords t) ((dat1 V c).after 4 t) = _
  rw [after1_4]
  unfold out1_4
  rw [View.canon_unit_zero zero_offsets]
  simp only [View.ld_unit_zero (S := S5000x64) zero_offsets, View.ld_unit_zero (S := S5000x1) zero_offsets,
    View.ld_unit_zero (S := S1x64) zero_offsets]
  obtain ⟨i00, i01, i10, i11, i20, i21, i30, i31, i40, i41⟩ := index_facts t
  funext j
  show k1_pay1 (F := Ideal) (fun y => V c main_v16 (((cfg1.win 3).blk t).view.emb y))
      (fun y => V c main_v27 (((cfg1.win 0).blk t).view.emb y)) (fun y => V c main_v28 (((cfg1.win 2).blk t).view.emb y))
      (fun y => V c main_arg0 (((cfg1.win 1).blk t).view.emb y)) j
    = epilogueOut (V c main_v27) (V c main_arg0) (V c main_v28) (V c main_v16) (((cfg1.win 4).blk t).view.emb j)
  refine block_value (V c main_v27) (V c main_arg0) (V c main_v28) (V c main_v16) t.val
    (fun y => ((cfg1.win 0).blk t).view.emb y) (fun y => ((cfg1.win 1).blk t).view.emb y)
    (fun y => ((cfg1.win 4).blk t).view.emb y) (fun y => ((cfg1.win 2).blk t).view.emb y)
    (fun y => ((cfg1.win 3).blk t).view.emb y) (fun y => ⟨?_, ?_⟩) (fun y => ⟨?_, ?_⟩) (fun y => ?_) (fun y => ?_)
    (fun y => ⟨?_, ?_⟩) j
  · show win1_0.index t (0 : Fin 2) * 5000 + 1 * (y 0).val = t.val * 5000 + (y 0).val; rw [i00]; omega
  · show win1_0.index t (1 : Fin 2) * 64 + 1 * (y 1).val = (y 1).val; rw [i01]; omega
  · show win1_1.index t (0 : Fin 2) * 5000 + 1 * (y 0).val = t.val * 5000 + (y 0).val; rw [i10]; omega
  · show win1_1.index t (1 : Fin 2) * 64 + 1 * (y 1).val = (y 1).val; rw [i11]; omega
  · show win1_2.index t (1 : Fin 2) * 64 + 1 * (y 1).val = (y 1).val; rw [i21]; omega
  · show win1_3.index t (0 : Fin 2) * 5000 + 1 * (y 0).val = t.val * 5000 + (y 0).val; rw [i30]; omega
  · show win1_4.index t (0 : Fin 2) * 5000 + 1 * (y 0).val = t.val * 5000 + (y 0).val; rw [i40]; omega
  · show win1_4.index t (1 : Fin 2) * 64 + 1 * (y 1).val = (y 1).val; rw [i41]; omega

/-! ## The ten row bands cover the array -/

/-- An index of the output array is in point `t`'s block iff each coordinate is in the block's range on its axis. -/
theorem mem_block (t : Fin cfg1.N) (i : S50000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v29).slice (win1_4.rect t)).set ↔ _
  rw [View.set_slice_whole, Rect.mem_set_unit]
  exact Iff.rfl

/-- Every index of the output array is in the block of a point that writes back: row `r` in that of point `r / 5000`. -/
theorem covered (i : S50000x64.Idx) :
    ∃ t : Fin cfg1.N, (cfg1.win 4).flush t = true ∧ i ∈ ((cfg1.win 4).blk t).view.set := by
  have hi0 : (i 0).val < 50000 := idx2_lt0 i
  have hi1 : (i 1).val < 64 := idx2_lt1 i
  have hlt : (i 0).val / 5000 < cfg1.N := by show _ < grid1.N; rw [N_1]; omega
  obtain ⟨-, -, -, -, -, -, -, -, i40, i41⟩ := index_facts ⟨(i 0).val / 5000, hlt⟩
  have i40' : win1_4.index ⟨(i 0).val / 5000, hlt⟩ (0 : Fin 2) = (i 0).val / 5000 := i40
  refine ⟨⟨(i 0).val / 5000, hlt⟩, flush1_4 _, ?_⟩
  rw [mem_block]
  intro a
  match a with
  | ⟨0, _⟩ =>
    show win1_4.index ⟨(i 0).val / 5000, hlt⟩ (0 : Fin 2) * 5000 ≤ (i 0).val
      ∧ (i 0).val < win1_4.index ⟨(i 0).val / 5000, hlt⟩ (0 : Fin 2) * 5000 + 5000
    rw [i40']; omega
  | ⟨1, _⟩ =>
    show win1_4.index ⟨(i 0).val / 5000, hlt⟩ (1 : Fin 2) * 64 ≤ (i 1).val
      ∧ (i 1).val < win1_4.index ⟨(i 0).val / 5000, hlt⟩ (1 : Fin 2) * 64 + 64
    rw [i41]; omega

/-! ## The array after the region -/

/-- THE OUTPUT ARRAY AFTER THE REGION is `epilogueOut` of the four input arrays as the region finds them. -/
theorem final1 (c : Dev nD) :
    (dat1 (F := Ideal) V c).arrAt 4 cfg1.N
      = epilogueOut (V c (Pipeline.arrRef spec1 0)) (V c (Pipeline.arrRef spec1 1)) (V c (Pipeline.arrRef spec1 2))
          (V c (Pipeline.arrRef spec1 3)) :=
  (dat1 V c).arrAt_eq_of_cover 4 _ (fun t _ => flushed_eq V c t) covered

end Cert.KernelIdeal.Epilogue

end
-- ==== Proof.KernelValue.lean ====
/-
  What the idealized kernel program's result array holds after the run, as a function of the four argument arrays.

  The run's buffer contents at each boundary between its six segments are a fold through @main (the frame's `W0` … `W6`).
  Read at single buffers: before the first region the node features, the weights and the bias are as launched, and the
  stretch of host operations has computed every edge's source and destination node and the column of inverse root
  degrees; the first region leaves the transformed, source-scaled rows; the stretch between the regions gathers them at
  the edges' sources and sums them into the edges' destinations, and reshapes the bias into a row; the second region
  leaves `relu(scale · aggregate + bias) + features`. The host stretches are read at an arbitrary float instance (their
  operations are then opaque and nothing computes), the two regions at the extended reals.
-/
import proofs.«113441_j88527865905437_2_alg».proof.Proof.Gen.KernelIdeal.Frame
import proofs.«113441_j88527865905437_2_alg».proof.Proof.KernelTerms
import proofs.«113441_j88527865905437_2_alg».proof.Proof.KernelTermsF
import proofs.«113441_j88527865905437_2_alg».proof.Proof.LinearBlocks
import proofs.«113441_j88527865905437_2_alg».proof.Proof.EpilogueBlocks
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.SL.Sem Idealize.ShloMosaic.StableHlo

section AnyInstance

variable {F : FTy → Type} [FloatOps F]
variable (m : (ℓ : Loc nD τ sig) → Buf (Elt F) ℓ) (ρ : Dev nD → PrngReg) (c : Dev nD)

/-! ## The boundary before the first region, at any float instance -/

theorem W3_arg0 : W3 m ρ c (Proc.devRef .tc main_arg0) = m ((c.tc : Thread nD τ).loc main_arg0) := by
  dsimp only [W3, W2, W1, W0, hostOps0, hostOps0_1, hostOps0_2]
  after_results

theorem W3_arg2 : W3 m ρ c (Proc.devRef .tc main_arg2) = m ((c.tc : Thread nD τ).loc main_arg2) := by
  dsimp only [W3, W2, W1, W0, hostOps0, hostOps0_1, hostOps0_2]
  after_results

theorem W3_arg3 : W3 m ρ c (Proc.devRef .tc main_arg3) = m ((c.tc : Thread nD τ).loc main_arg3) := by
  dsimp only [W3, W2, W1, W0, hostOps0, hostOps0_1, hostOps0_2]
  after_results

theorem W3_v5 : (W3 m ρ c (Proc.devRef .tc main_v5) : S850000.Idx → BitVec 32) = Terms.srcNode (m ((c.tc : Thread nD τ).loc main_arg1)) := by
  dsimp only [W3, W2, W1, W0, hostOps0, hostOps0_1, hostOps0_2]
  after_results
  rfl

theorem W3_v6 : (W3 m ρ c (Proc.devRef .tc main_v6) : S850000.Idx → BitVec 32) = Terms.dstNode (m ((c.tc : Thread nD τ).loc main_arg1)) := by
  dsimp only [W3, W2, W1, W0, hostOps0, hostOps0_1, hostOps0_2]
  after_results
  rfl

theorem W3_v16 : (W3 m ρ c (Proc.devRef .tc main_v16) : S50000x1.Idx → F .f32) = TermsF.invSqrtDegCol F (m ((c.tc : Thread nD τ).loc main_arg1)) := by
  dsimp only [W3, W2, W1, W0, hostOps0, hostOps0_1, hostOps0_2]
  after_results
  rfl

/-! ## After the first region: what it did not write -/

theorem W4_v5 : (W4 m ρ c (Proc.devRef .tc main_v5) : S850000.Idx → BitVec 32) = Terms.srcNode (m ((c.tc : Thread nD τ).loc main_arg1)) :=
  (W4_of_ne m ρ c main_v5 (by decide)).trans (W3_v5 m ρ c)

theorem W4_v6 : (W4 m ρ c (Proc.devRef .tc main_v6) : S850000.Idx → BitVec 32) = Terms.dstNode (m ((c.tc : Thread nD τ).loc main_arg1)) :=
  (W4_of_ne m ρ c main_v6 (by decide)).trans (W3_v6 m ρ c)

theorem W4_arg3 : W4 m ρ c (Proc.devRef .tc main_arg3) = m ((c.tc : Thread nD τ).loc main_arg3) :=
  (W4_of_ne m ρ c main_arg3 (by decide)).trans (W3_arg3 m ρ c)

theorem W4_arg0 : W4 m ρ c (Proc.devRef .tc main_arg0) = m ((c.tc : Thread nD τ).loc main_arg0) :=
  ((W4_arr m ρ c 0).trans (((dat0 (V3 m ρ) c).arrAt_in 0 rfl _).trans (A_eq0 (V3 m ρ) c 0))).trans (W3_arg0 m ρ c)

theorem W4_v16 : (W4 m ρ c (Proc.devRef .tc main_v16) : S50000x1.Idx → F .f32) = TermsF.invSqrtDegCol F (m ((c.tc : Thread nD τ).loc main_arg1)) :=
  ((W4_arr m ρ c 2).trans (((dat0 (V3 m ρ) c).arrAt_in 2 rfl _).trans (A_eq0 (V3 m ρ) c 2))).trans (W3_v16 m ρ c)

/-! ## The boundary before the second region: what the stretch between the regions copies or reshapes -/

theorem W5_v28 : (W5 m ρ c (Proc.devRef .tc main_v28) : S1x64.Idx → F .f32) = TermsF.biasRow (m ((c.tc : Thread nD τ).loc main_arg3)) := by
  have h3 := W4_arg3 m ρ c
  dsimp only [W5, hostOps1]
  generalize W4 m ρ c = W at h3 ⊢
  after_results
  rw [h3]
  rfl

theorem W5_v16 : (W5 m ρ c (Proc.devRef .tc main_v16) : S50000x1.Idx → F .f32) = TermsF.invSqrtDegCol F (m ((c.tc : Thread nD τ).loc main_arg1)) := by
  have h := W4_v16 m ρ c
  dsimp only [W5, hostOps1]
  generalize W4 m ρ c = W at h ⊢
  after_results
  exact h

theorem W5_arg0 : W5 m ρ c (Proc.devRef .tc main_arg0) = m ((c.tc : Thread nD τ).loc main_arg0) := by
  have h := W4_arg0 m ρ c
  dsimp only [W5, hostOps1]
  generalize W4 m ρ c = W at h ⊢
  after_results
  exact h

end AnyInstance

section AtTheExtendedReals

variable (m : (ℓ : Loc nD τ sig) → Buf (Elt Ideal) ℓ) (ρ : Dev nD → PrngReg) (c : Dev nD)

/-! ## The first region's result, and the aggregate computed from it -/

/-- After the first region its output array holds the transformed rows, each scaled by its node's inverse root degree. -/
theorem W4_v17 : (W4 m ρ c (Proc.devRef .tc main_v17) : S50000x64.Idx → EReal) =
    Terms.scaledRows (m ((c.tc : Thread nD τ).loc main_arg0)) (m ((c.tc : Thread nD τ).loc main_arg1)) (m ((c.tc : Thread nD τ).loc main_arg2)) := by
  refine (W4_arr m ρ c 3).trans ((Linear.final0 (V3 m ρ) c).trans ?_)
  show Linear.linearOut (W3 m ρ c (Proc.devRef .tc main_arg0)) (W3 m ρ c (Proc.devRef .tc main_arg2)) (W3 m ρ c (Proc.devRef .tc main_v16)) = _
  rw [W3_arg0, W3_arg2, W3_v16, TermsF.invSqrtDegCol_eq]
  rfl

/-- The stretch between the regions gathers those rows at every edge's source and sums them into the edge's destination. -/
theorem W5_v27 : (W5 m ρ c (Proc.devRef .tc main_v27) : S50000x64.Idx → EReal) =
    Terms.aggregate (m ((c.tc : Thread nD τ).loc main_arg0)) (m ((c.tc : Thread nD τ).loc main_arg1)) (m ((c.tc : Thread nD τ).loc main_arg2)) := by
  have h5 := W4_v5 m ρ c
  have h6 := W4_v6 m ρ c
  have h17 := W4_v17 m ρ c
  dsimp only [W5, hostOps1]
  generalize W4 m ρ c = W at h5 h6 h17 ⊢
  after_results
  rw [h5, h6, h17]
  unfold Terms.aggregate Terms.gathered Terms.srcNorm
  rfl

/-! ## After the second region: the result -/

/-- The result array after the run: the second region's function of the aggregate, the node features, the bias row and
    the column of inverse root degrees. -/
theorem out_eq : (W6 m ρ c (Proc.devRef .tc main_v29) : S50000x64.Idx → EReal) =
    Epilogue.epilogueOut
      (Terms.aggregate (m ((c.tc : Thread nD τ).loc main_arg0)) (m ((c.tc : Thread nD τ).loc main_arg1)) (m ((c.tc : Thread nD τ).loc main_arg2)))
      (m ((c.tc : Thread nD τ).loc main_arg0)) (Terms.biasRow (m ((c.tc : Thread nD τ).loc main_arg3)))
      (Terms.invSqrtDegCol (m ((c.tc : Thread nD τ).loc main_arg1))) := by
  refine (W6_arr m ρ c 4).trans ((Epilogue.final1 (V5 m ρ) c).trans ?_)
  show Epilogue.epilogueOut (W5 m ρ c (Proc.devRef .tc main_v27)) (W5 m ρ c (Proc.devRef .tc main_arg0)) (W5 m ρ c (Proc.devRef .tc main_v28)) (W5 m ρ c (Proc.devRef .tc main_v16)) = _
  rw [W5_v27, W5_arg0, W5_v28, W5_v16, TermsF.biasRow_eq, TermsF.invSqrtDegCol_eq]

end AtTheExtendedReals

end Cert.KernelIdeal.KValue

end
-- ==== Proof.LibRowGatherScatter.lean ====
/-
  Row gather, element gather and row scatter of StableHLO, read at an index.

  The dimension numbers that `x[idx]` over the rows of a matrix, `x[idx]` over a flat array and a row-wise
  segment sum lower to, each with start indices of shape `[E, 1]` (one scalar index per gathered or scattered row):
  a gathered row is the operand's row at the start index read signed and clamped into `[0, N - 1]`; a scattered
  update row lands on the operand row whose number is the scatter index read signed and not clamped, and is dropped when
  that number is outside `[0, N)`; the column is kept in both.
-/
import Idealize.ShloMosaic.PureOps.Ideal
import Idealize.ShloMosaic.Lib.ValueIdx

noncomputable section

namespace Idealize.ShloMosaic.RowGatherScatter

open Idealize.ShloMosaic Idealize.ShloMosaic.ValueIdx

/-- A signed start index clamped into `[0, N - 1]`, as StableHLO's gather clamps it. -/
def clampRow {w : Nat} (N : Nat) (hN : 0 < N) (v : BitVec w) : Fin N := ⟨min v.toInt.toNat (N - 1), by omega⟩

/-! ## Row gather: operand `[N, D]`, start indices `[E, 1]`, result `[E, D]` -/

/-- The dimension numbers of a gather of whole rows: the result's axis 1 is the offset axis, the operand's axis 0 is
    collapsed and is the one the start index names, the slice is one row `[1, D]`. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The start-indices index at which result index `(e, j)` of a row gather reads its one start-index component
    is `(e, 0)`. -/
theorem rowGather_siIdx {N E D : Nat}
    (wf : GatherDims.WF ⟨2, ![N, D]⟩ ⟨2, ![E, 1]⟩ ⟨2, ![E, D]⟩ [1] [0] [] [0] [] 1 ![1, D])
    (e : Fin E) (j : Fin D) (c : Fin (rowGatherDims N E D wf).startIndexMap.length) :
    (rowGatherDims N E D wf).siIdx (ix2 e j) c = ix2 e (0 : Fin 1) := by
  funext b
  refine Fin.ext ?_
  match b with
  | ⟨0, _⟩ => rfl
  | ⟨1, _⟩ =>
    have hc : c.val < 1 := c.isLt
    show c.val = 0
    omega

/-- THE ROW GATHER READ AT `(e, j)`: the operand at row "start index `idx[e, 0]` read signed and clamped into
    `[0, N - 1]`", column `j`. -/
theorem gather_rows_apply {α : Type} {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowGatherDims N E D wf) x idx (ix2 e j) = x (ix2 (clampRow N hN (idx (ix2 e (0 : Fin 1)))) j) := by
  unfold Host.gather
  congr 1
  funext a
  refine Fin.ext ?_
  match a with
  | ⟨0, _⟩ =>
    show (rowGatherDims N E D wf).start (ix2 e j) idx 0 + (rowGatherDims N E D wf).batchCoord (ix2 e j) 0
      + (rowGatherDims N E D wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    rw [rowGather_siIdx]
    rfl
  | ⟨1, _⟩ =>
    show (rowGatherDims N E D wf).start (ix2 e j) idx 1 + (rowGatherDims N E D wf).batchCoord (ix2 e j) 1
      + (rowGatherDims N E D wf).offCoord (ix2 e j) 1 = j.val
    rw [GatherDims.batchCoord_eq_zero _ _ _ List.not_mem_nil]
    have hs : (rowGatherDims N E D wf).start (ix2 e j) idx 1 = 0 := by
      unfold GatherDims.start
      rw [dif_neg (show (1 : Fin 2) ∉ [(0 : Fin 2)] by decide)]
    rw [hs]
    simp only [Nat.add_zero, Nat.zero_add]
    rfl

/-! ## Element gather: operand `[N]`, start indices `[E, 1]`, result `[E]` -/

/-- The dimension numbers of a gather of single elements of a flat array: no offset axis, the operand's one axis
    collapsed and named by the start index, the slice one element. -/
abbrev elemGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The start-indices index at which result index `e` of an element gather reads its one start-index component
    is `(e, 0)`. -/
theorem elemGather_siIdx {N E : Nat}
    (wf : GatherDims.WF ⟨1, ![N]⟩ ⟨2, ![E, 1]⟩ ⟨1, ![E]⟩ [] [0] [] [0] [] 1 ![1])
    (e : Fin E) (c : Fin (elemGatherDims N E wf).startIndexMap.length) :
    (elemGatherDims N E wf).siIdx (ix1 e) c = ix2 e (0 : Fin 1) := by
  funext b
  refine Fin.ext ?_
  match b with
  | ⟨0, _⟩ => rfl
  | ⟨1, _⟩ =>
    have hc : c.val < 1 := c.isLt
    show c.val = 0
    omega

/-- THE ELEMENT GATHER READ AT `e`: the operand at "start index `idx[e, 0]` read signed and clamped into
    `[0, N - 1]`". -/
theorem gather_elems_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (elemGatherDims N E wf) x idx (ix1 e) = x (ix1 (clampRow N hN (idx (ix2 e (0 : Fin 1))))) := by
  unfold Host.gather
  congr 1
  funext a
  obtain rfl : a = 0 := Subsingleton.elim _ _
  refine Fin.ext ?_
  show (elemGatherDims N E wf).start (ix1 e) idx 0 + (elemGatherDims N E wf).batchCoord (ix1 e) 0
    + (elemGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (elemGatherDims N E wf).startIndexMap from List.mem_singleton.mpr rfl)]
  rw [elemGather_siIdx]
  rfl

/-! ## Row scatter: operand `[N, D]`, scatter indices `[E, 1]`, updates `[E, D]` -/

/-- The dimension numbers of a scatter of whole rows: the updates' axis 1 is the window axis, the operand's axis 0 is
    inserted and is the one the scatter index names. -/
abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- The scatter-indices index at which update index `(e, j)` of a row scatter reads its one start-index component
    is `(e, 0)`. -/
theorem rowScatter_siIdx {N E D : Nat}
    (wf : ScatterDims.WF ⟨2, ![N, D]⟩ ⟨2, ![E, 1]⟩ ⟨2, ![E, D]⟩ [1] [0] [0] 1)
    (e : Fin E) (j : Fin D) (c : Fin (rowScatterDims N E D wf).scatterDimsToOperandDims.length) :
    (rowScatterDims N E D wf).siIdx (ix2 e j) c = ix2 e (0 : Fin 1) := by
  funext b
  refine Fin.ext ?_
  match b with
  | ⟨0, _⟩ => rfl
  | ⟨1, _⟩ =>
    have hc : c.val < 1 := c.isLt
    show c.val = 0
    omega

/-- On the row axis the window of update `(e, j)` starts at the scatter index `idx[e, 0]` read signed. -/
theorem rowScatter_start_row {N E D w : Nat}
    (wf : ScatterDims.WF ⟨2, ![N, D]⟩ ⟨2, ![E, 1]⟩ ⟨2, ![E, D]⟩ [1] [0] [0] 1)
    (idx : IVec ⟨2, ![E, 1]⟩ w) (e : Fin E) (j : Fin D) :
    (rowScatterDims N E D wf).start (ix2 e j) idx 0 = (idx (ix2 e (0 : Fin 1))).toInt := by
  unfold ScatterDims.start
  rw [dif_pos (show (0 : Fin 2) ∈ (rowScatterDims N E D wf).scatterDimsToOperandDims from List.mem_singleton.mpr rfl)]
  rw [rowScatter_siIdx]

/-- On the column axis the window starts at `0`: the scatter index does not name that axis. -/
theorem rowScatter_start_col {N E D w : Nat}
    (wf : ScatterDims.WF ⟨2, ![N, D]⟩ ⟨2, ![E, 1]⟩ ⟨2, ![E, D]⟩ [1] [0] [0] 1)
    (idx : IVec ⟨2, ![E, 1]⟩ w) (e : Fin E) (j : Fin D) :
    (rowScatterDims N E D wf).start (ix2 e j) idx 1 = 0 := by
  unfold ScatterDims.start
  rw [dif_neg (show (1 : Fin 2) ∉ [(0 : Fin 2)] by decide)]

/-- The window coordinate of update `(e, j)` on the row axis is `0`: that axis is inserted. -/
theorem rowScatter_window_row {N E D : Nat}
    (wf : ScatterDims.WF ⟨2, ![N, D]⟩ ⟨2, ![E, 1]⟩ ⟨2, ![E, D]⟩ [1] [0] [0] 1) (e : Fin E) (j : Fin D) :
    (rowScatterDims N E D wf).window (ix2 e j) 0 = 0 := rfl

/-- The window coordinate of update `(e, j)` on the column axis is the column `j`. -/
theorem rowScatter_window_col {N E D : Nat}
    (wf : ScatterDims.WF ⟨2, ![N, D]⟩ ⟨2, ![E, 1]⟩ ⟨2, ![E, D]⟩ [1] [0] [0] 1) (e : Fin E) (j : Fin D) :
    (rowScatterDims N E D wf).window (ix2 e j) 1 = j.val := rfl

/-- WHERE A SCATTERED ROW LANDS: update row `e` lands on operand row `n` exactly when its scatter index
    `idx[e, 0]`, read signed and NOT clamped, is `n`; the column is kept. -/
theorem rowScatter_resultIdx?_eq_some {N E D w : Nat}
    (wf : ScatterDims.WF ⟨2, ![N, D]⟩ ⟨2, ![E, 1]⟩ ⟨2, ![E, D]⟩ [1] [0] [0] 1)
    (idx : IVec ⟨2, ![E, 1]⟩ w) (e : Fin E) (j : Fin D) (i : (⟨2, ![N, D]⟩ : Shape).Idx)
    (h : (rowScatterDims N E D wf).resultIdx? (ix2 e j) idx = some i) :
    ∃ n : Fin N, i = ix2 n j ∧ (idx (ix2 e (0 : Fin 1))).toInt = (n.val : Int) := by
  unfold ScatterDims.resultIdx? at h
  split at h
  · rename_i hin
    have h0 := hin 0
    rw [rowScatter_start_row, rowScatter_window_row] at h0
    have hsize : (⟨2, ![N, D]⟩ : Shape).size 0 = N := rfl
    rw [hsize] at h0
    have hi := Option.some.inj h
    refine ⟨⟨(idx (ix2 e (0 : Fin 1))).toInt.toNat, by omega⟩, ?_, by simp only; omega⟩
    rw [← hi]
    funext a
    refine Fin.ext ?_
    match a with
    | ⟨0, _⟩ =>
      show ((rowScatterDims N E D wf).start (ix2 e j) idx 0 + ((rowScatterDims N E D wf).window (ix2 e j) 0 : Nat)).toNat
        = (idx (ix2 e (0 : Fin 1))).toInt.toNat
      rw [rowScatter_start_row, rowScatter_window_row]
      simp
    | ⟨1, _⟩ =>
      show ((rowScatterDims N E D wf).start (ix2 e j) idx 1 + ((rowScatterDims N E D wf).window (ix2 e j) 1 : Nat)).toNat
        = j.val
      rw [rowScatter_start_col, rowScatter_window_col]
      simp
  · exact absurd h (by simp)

/-- The converse: when the scatter index `idx[e, 0]`, read signed, is the row number `n < N`, update
    `(e, j)` lands at `(n, j)`. -/
theorem rowScatter_resultIdx?_of_toInt {N E D w : Nat}
    (wf : ScatterDims.WF ⟨2, ![N, D]⟩ ⟨2, ![E, 1]⟩ ⟨2, ![E, D]⟩ [1] [0] [0] 1)
    (idx : IVec ⟨2, ![E, 1]⟩ w) (e : Fin E) (j : Fin D) (n : Fin N)
    (hn : (idx (ix2 e (0 : Fin 1))).toInt = (n.val : Int)) :
    (rowScatterDims N E D wf).resultIdx? (ix2 e j) idx = some (ix2 n j) := by
  have hin : ∀ a, 0 ≤ (rowScatterDims N E D wf).start (ix2 e j) idx a + (rowScatterDims N E D wf).window (ix2 e j) a ∧
      (rowScatterDims N E D wf).start (ix2 e j) idx a + (rowScatterDims N E D wf).window (ix2 e j) a
        < (⟨2, ![N, D]⟩ : Shape).size a := by
    intro a
    match a with
    | ⟨0, _⟩ =>
      have hsize : (⟨2, ![N, D]⟩ : Shape).size ⟨0, by omega⟩ = N := rfl
      have h0 : (rowScatterDims N E D wf).start (ix2 e j) idx ⟨0, by omega⟩ = (n.val : Int) :=
        (rowScatter_start_row wf idx e j).trans hn
      have h1 : (rowScatterDims N E D wf).window (ix2 e j) ⟨0, by omega⟩ = 0 := rfl
      have := n.isLt
      rw [hsize, h0, h1]
      omega
    | ⟨1, _⟩ =>
      have hsize : (⟨2, ![N, D]⟩ : Shape).size ⟨1, by omega⟩ = D := rfl
      have h0 : (rowScatterDims N E D wf).start (ix2 e j) idx ⟨1, by omega⟩ = 0 := rowScatter_start_col wf idx e j
      have h1 : (rowScatterDims N E D wf).window (ix2 e j) ⟨1, by omega⟩ = j.val := rfl
      have := j.isLt
      rw [hsize, h0, h1]
      omega
  unfold ScatterDims.resultIdx?
  rw [dif_pos hin]
  congr 1
  funext a
  refine Fin.ext ?_
  match a with
  | ⟨0, _⟩ =>
    show ((rowScatterDims N E D wf).start (ix2 e j) idx 0 + ((rowScatterDims N E D wf).window (ix2 e j) 0 : Nat)).toNat
      = n.val
    rw [rowScatter_start_row, rowScatter_window_row, hn]
    simp
  | ⟨1, _⟩ =>
    show ((rowScatterDims N E D wf).start (ix2 e j) idx 1 + ((rowScatterDims N E D wf).window (ix2 e j) 1 : Nat)).toNat
      = j.val
    rw [rowScatter_start_col, rowScatter_window_col]
    simp

/-! ## Element scatter: operand `[N]`, scatter indices `[E, 1]`, updates `[E]` -/

/-- The dimension numbers of a scatter of single elements into a flat array: no window axis, the operand's one axis
    inserted and named by the scatter index. -/
abbrev elemScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The scatter-indices index at which update index `e` of an element scatter reads its one start-index component
    is `(e, 0)`. -/
theorem elemScatter_siIdx {N E : Nat}
    (wf : ScatterDims.WF ⟨1, ![N]⟩ ⟨2, ![E, 1]⟩ ⟨1, ![E]⟩ [] [0] [0] 1)
    (e : Fin E) (c : Fin (elemScatterDims N E wf).scatterDimsToOperandDims.length) :
    (elemScatterDims N E wf).siIdx (ix1 e) c = ix2 e (0 : Fin 1) := by
  funext b
  refine Fin.ext ?_
  match b with
  | ⟨0, _⟩ => rfl
  | ⟨1, _⟩ =>
    have hc : c.val < 1 := c.isLt
    show c.val = 0
    omega

/-- The window of update `e` starts at the scatter index `idx[e, 0]` read signed. -/
theorem elemScatter_start {N E w : Nat}
    (wf : ScatterDims.WF ⟨1, ![N]⟩ ⟨2, ![E, 1]⟩ ⟨1, ![E]⟩ [] [0] [0] 1)
    (idx : IVec ⟨2, ![E, 1]⟩ w) (e : Fin E) :
    (elemScatterDims N E wf).start (ix1 e) idx 0 = (idx (ix2 e (0 : Fin 1))).toInt := by
  unfold ScatterDims.start
  rw [dif_pos (show (0 : Fin 1) ∈ (elemScatterDims N E wf).scatterDimsToOperandDims from List.mem_singleton.mpr rfl)]
  rw [elemScatter_siIdx]

/-- The window coordinate of update `e` on the one axis is `0`: that axis is inserted. -/
theorem elemScatter_window {N E : Nat}
    (wf : ScatterDims.WF ⟨1, ![N]⟩ ⟨2, ![E, 1]⟩ ⟨1, ![E]⟩ [] [0] [0] 1) (e : Fin E) :
    (elemScatterDims N E wf).window (ix1 e) 0 = 0 := rfl

/-- WHERE A SCATTERED ELEMENT LANDS: update `e` lands on operand element `n` exactly when its scatter index
    `idx[e, 0]`, read signed and NOT clamped, is `n`. -/
theorem elemScatter_resultIdx?_eq_some {N E w : Nat}
    (wf : ScatterDims.WF ⟨1, ![N]⟩ ⟨2, ![E, 1]⟩ ⟨1, ![E]⟩ [] [0] [0] 1)
    (idx : IVec ⟨2, ![E, 1]⟩ w) (e : Fin E) (i : (⟨1, ![N]⟩ : Shape).Idx)
    (h : (elemScatterDims N E wf).resultIdx? (ix1 e) idx = some i) :
    ∃ n : Fin N, i = ix1 n ∧ (idx (ix2 e (0 : Fin 1))).toInt = (n.val : Int) := by
  unfold ScatterDims.resultIdx? at h
  split at h
  · rename_i hin
    have h0 := hin 0
    rw [elemScatter_start, elemScatter_window] at h0
    have hsize : (⟨1, ![N]⟩ : Shape).size 0 = N := rfl
    rw [hsize] at h0
    have hi := Option.some.inj h
    refine ⟨⟨(idx (ix2 e (0 : Fin 1))).toInt.toNat, by omega⟩, ?_, by simp only; omega⟩
    rw [← hi]
    funext a
    obtain rfl : a = 0 := Subsingleton.elim _ _
    refine Fin.ext ?_
    show ((elemScatterDims N E wf).start (ix1 e) idx 0 + ((elemScatterDims N E wf).window (ix1 e) 0 : Nat)).toNat
      = (idx (ix2 e (0 : Fin 1))).toInt.toNat
    rw [elemScatter_start, elemScatter_window]
    simp
  · exact absurd h (by simp)

/-- The converse: when the scatter index `idx[e, 0]`, read signed, is the element number `n < N`, update
    `e` lands at `n`. -/
theorem elemScatter_resultIdx?_of_toInt {N E w : Nat}
    (wf : ScatterDims.WF ⟨1, ![N]⟩ ⟨2, ![E, 1]⟩ ⟨1, ![E]⟩ [] [0] [0] 1)
    (idx : IVec ⟨2, ![E, 1]⟩ w) (e : Fin E) (n : Fin N)
    (hn : (idx (ix2 e (0 : Fin 1))).toInt = (n.val : Int)) :
    (elemScatterDims N E wf).resultIdx? (ix1 e) idx = some (ix1 n) := by
  have hin : ∀ a, 0 ≤ (elemScatterDims N E wf).start (ix1 e) idx a + (elemScatterDims N E wf).window (ix1 e) a ∧
      (elemScatterDims N E wf).start (ix1 e) idx a + (elemScatterDims N E wf).window (ix1 e) a
        < (⟨1, ![N]⟩ : Shape).size a := by
    intro a
    obtain rfl : a = 0 := Subsingleton.elim _ _
    have hsize : (⟨1, ![N]⟩ : Shape).size 0 = N := rfl
    have h0 : (elemScatterDims N E wf).start (ix1 e) idx 0 = (n.val : Int) := (elemScatter_start wf idx e).trans hn
    have h1 : (elemScatterDims N E wf).window (ix1 e) 0 = 0 := rfl
    have := n.isLt
    rw [hsize, h0, h1]
    omega
  unfold ScatterDims.resultIdx?
  rw [dif_pos hin]
  congr 1
  funext a
  obtain rfl : a = 0 := Subsingleton.elim _ _
  refine Fin.ext ?_
  show ((elemScatterDims N E wf).start (ix1 e) idx 0 + ((elemScatterDims N E wf).window (ix1 e) 0 : Nat)).toNat = n.val
  rw [elemScatter_start, elemScatter_window, hn]
  simp

/-! ## A start index that is a row number -/

/-- A start index whose signed value is a row number `n < N` is clamped to `n` itself. -/
theorem clampRow_of_toInt {N : Nat} (hN : 0 < N) (v : BitVec 32) (n : Fin N) (h : v.toInt = (n.val : Int)) :
    clampRow N hN v = n := by
  refine Fin.ext ?_
  have hn := n.isLt
  show min v.toInt.toNat (N - 1) = n.val
  rw [h]
  simp only [Int.toNat_natCast]
  omega

/-- The signed comparison "`v < 0`" of a 32-bit word whose signed value is a natural number is the bit `0`. -/
theorem cmpi_slt_zero_of_toInt (v : BitVec 32) (n : Nat) (h : v.toInt = (n : Int)) :
    IntOp.cmpi .slt v 0#32 = 0#1 := by
  have hs : v.slt 0#32 = false := by
    simp only [BitVec.slt, h]
    simp
  show BitVec.ofBool (v.slt 0#32) = 0#1
  rw [hs]
  rfl

/-- Normalising a possibly negative index (`v < 0 → v + N`) leaves alone a word whose signed value is a natural
    number: the select takes its second operand, whatever the first is. -/
theorem select_slt_zero_of_toInt {α : Type} (v : BitVec 32) (n : Nat) (h : v.toInt = (n : Int)) (a b : α) :
    Scalar.select (IntOp.cmpi .slt v 0#32) a b = b := by
  rw [cmpi_slt_zero_of_toInt v n h]
  exact select_zero a b

/-- The normalised index as a program computes it at one element, `select (cmpi slt v 0) (addi v N) v`, is `v`
    when `v`'s signed value is a natural number. -/
theorem normalised_of_toInt (v : BitVec 32) (n : Nat) (h : v.toInt = (n : Int)) (N : BitVec 32) :
    Scalar.select (IntOp.cmpi .slt v 0#32) (IntOp.addi v N) v = v :=
  select_slt_zero_of_toInt v n h _ _

/-- The same with the sum written as the words' sum (`IntOp.addi v N` is `v + N` by definition). -/
theorem normalised_of_toInt' (v : BitVec 32) (n : Nat) (h : v.toInt = (n : Int)) (N : BitVec 32) :
    Scalar.select (IntOp.cmpi .slt v 0#32) (v + N) v = v :=
  select_slt_zero_of_toInt v n h _ _

end Idealize.ShloMosaic.RowGatherScatter

end
-- ==== Proof.RefValue.lean ====
/-
  The reference program read at an index.

  The reference is a graph convolution layer over `N = 50000` nodes with `64` features and `E = 850000`
  edges (the `800000` given ones followed by one self loop per node). Each stage that matters is read at one element:
  the linear map `x @ W` as a sum over the contracted axis; the weight of an edge as the product of the inverse root
  degrees of its two end nodes; the message of an edge as its weight times the transformed features of its source node;
  the aggregate at a node as the sum of the messages of the edges whose destination is that node; and the output as
  `max (aggregate + bias) 0 + x`. An end node of an edge enters as a start index read signed and clamped into
  `[0, N - 1]`, after a negative index has been shifted by `N`.
-/
import proofs.«113441_j88527865905437_2_alg».proof.Proof.RefRead
import proofs.«113441_j88527865905437_2_alg».proof.Proof.LibRowGatherScatter
import Idealize.ShloMosaic.Lib.IdealHost
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic
  Idealize.ShloMosaic.ValueIdx Idealize.ShloMosaic.RowGatherScatter

variable (x0 : (⟨S50000x64, .f32⟩ : BufTy).Contents (Elt Ideal)) (x1 : (⟨S2x800000, .i32⟩ : BufTy).Contents (Elt Ideal))
  (x2 : (⟨S64x64, .f32⟩ : BufTy).Contents (Elt Ideal)) (x3 : (⟨S64, .f32⟩ : BufTy).Contents (Elt Ideal))

/-! ## The linear map -/

/-- `x @ W` at `(n, j)`: the sum over `k` of `x[n, k] * W[k, j]`. -/
theorem matmul_apply (n : Fin 50000) (j : Fin 64) :
    val_main_v32 (F := Ideal) x0 x2 (ix2 n j) = ∑ k : Fin 64, x0 (ix2 n k) * x2 (ix2 k j) := by
  rw [val_main_v32_apply]
  refine Finset.sum_congr rfl fun k _ => ?_
  have el : lidx_main_v32 (ix2 n j) k = ix2 n k := by
    funext a
    match a with
    | ⟨0, _⟩ => rfl
    | ⟨1, _⟩ => rfl
  have er : ridx_main_v32 (ix2 n j) k = ix2 k j := by
    funext a
    match a with
    | ⟨0, _⟩ => rfl
    | ⟨1, _⟩ => rfl
  rw [el, er]

/-! ## The index arrays at an element -/

/-- A flat index array laid out as a column `[E, 1]` reads, at `(e, 0)`, the flat array at `e`: the source
    column with negative indices shifted. -/
theorem srcCol_apply (e : Fin 850000) :
    val_main_v21 (F := Ideal) x1 (ix2 e (0 : Fin 1)) = val_main_v20 (F := Ideal) x1 (ix1 e) := by
  rw [val_main_v21_apply]
  congr 1
  funext a
  match a with
  | ⟨0, _⟩ => rfl

/-- The same for the destination column with negative indices shifted. -/
theorem dstCol_apply (e : Fin 850000) :
    val_main_v29 (F := Ideal) x1 (ix2 e (0 : Fin 1)) = val_main_v28 (F := Ideal) x1 (ix1 e) := by
  rw [val_main_v29_apply]
  congr 1
  funext a
  match a with
  | ⟨0, _⟩ => rfl

/-- The second shifted copy of the source array is the first one: the same operations on the same operands. -/
theorem src_again : val_main_v38 (F := Ideal) x1 = val_main_v20 (F := Ideal) x1 := rfl

/-- The source column that the row gather reads, at `(e, 0)`. -/
theorem srcCol2_apply (e : Fin 850000) :
    val_main_v39 (F := Ideal) x1 (ix2 e (0 : Fin 1)) = val_main_v20 (F := Ideal) x1 (ix1 e) := by
  rw [val_main_v39_apply, src_again]
  congr 1
  funext a
  match a with
  | ⟨0, _⟩ => rfl

/-- The raw destination column that the scatter reads, at `(e, 0)`. -/
theorem dstRaw_apply (e : Fin 850000) :
    val_main_v44 (F := Ideal) x1 (ix2 e (0 : Fin 1)) = val_main_v6 (F := Ideal) x1 (ix1 e) := by
  rw [val_main_v44_apply]
  congr 1
  funext a
  match a with
  | ⟨0, _⟩ => rfl

/-! ## The edge weight -/

/-- The inverse root degree gathered at the source of edge `e`. -/
theorem srcScale_apply (e : Fin 850000) :
    val_main_v22 (F := Ideal) x1 (ix1 e)
      = val_main_v15 (F := Ideal) x1 (ix1 (clampRow 50000 (by decide) (val_main_v20 (F := Ideal) x1 (ix1 e)))) := by
  unfold val_main_v22
  rw [← srcCol_apply]
  exact gather_elems_apply (by decide) gather_S50000_S850000x1_S850000_n_0_n_n_0_1_1.wf
    (val_main_v15 (F := Ideal) x1) (val_main_v21 (F := Ideal) x1) e

/-- The inverse root degree gathered at the destination of edge `e`. -/
theorem dstScale_apply (e : Fin 850000) :
    val_main_v30 (F := Ideal) x1 (ix1 e)
      = val_main_v15 (F := Ideal) x1 (ix1 (clampRow 50000 (by decide) (val_main_v28 (F := Ideal) x1 (ix1 e)))) := by
  unfold val_main_v30
  rw [← dstCol_apply]
  exact gather_elems_apply (by decide) gather_S50000_S850000x1_S850000_n_0_n_n_0_1_1.wf
    (val_main_v15 (F := Ideal) x1) (val_main_v29 (F := Ideal) x1) e

/-- The array of ones that the source scale is multiplied by, at an element. -/
theorem ones_apply (i : S850000.Idx) : val_main_v7 (F := Ideal) i = 1 := by
  rw [val_main_v7_apply, val_main_cst_apply]
  exact Ideal.ofBits_one_f32

/-- THE WEIGHT OF EDGE `e`: the inverse root degree of its source, times one, times that of its destination. -/
theorem weight_apply (e : Fin 850000) :
    val_main_v31 (F := Ideal) x1 (ix1 e)
      = val_main_v15 (F := Ideal) x1 (ix1 (clampRow 50000 (by decide) (val_main_v20 (F := Ideal) x1 (ix1 e)))) * 1
        * val_main_v15 (F := Ideal) x1 (ix1 (clampRow 50000 (by decide) (val_main_v28 (F := Ideal) x1 (ix1 e)))) := by
  rw [val_main_v31_apply, val_main_v23_apply, srcScale_apply, dstScale_apply, ones_apply]
  rfl

/-! ## The message of an edge -/

/-- The transformed features gathered at the source of edge `e`, column `j`. -/
theorem srcRow_apply (e : Fin 850000) (j : Fin 64) :
    val_main_v40 (F := Ideal) x0 x1 x2 (ix2 e j)
      = val_main_v32 (F := Ideal) x0 x2 (ix2 (clampRow 50000 (by decide) (val_main_v20 (F := Ideal) x1 (ix1 e))) j) := by
  unfold val_main_v40
  rw [← srcCol2_apply]
  exact gather_rows_apply (by decide) gather_S50000x64_S850000x1_S850000x64_1_0_n_n_0_1_164.wf
    (val_main_v32 (F := Ideal) x0 x2) (val_main_v39 (F := Ideal) x1) e j

/-- The weight broadcast along the feature axis, at `(e, j)`. -/
theorem weightRow_apply (e : Fin 850000) (j : Fin 64) :
    val_main_v41 (F := Ideal) x1 (ix2 e j) = val_main_v31 (F := Ideal) x1 (ix1 e) := by
  rw [val_main_v41_apply, val_main_v33_apply]
  congr 1
  funext a
  match a with
  | ⟨0, _⟩ => rfl

/-- THE MESSAGE OF EDGE `e` AT COLUMN `j`: its weight times the transformed features of its source node. -/
theorem message_apply (e : Fin 850000) (j : Fin 64) :
    val_main_v42 (F := Ideal) x0 x1 x2 (ix2 e j)
      = val_main_v31 (F := Ideal) x1 (ix1 e)
        * val_main_v32 (F := Ideal) x0 x2 (ix2 (clampRow 50000 (by decide) (val_main_v20 (F := Ideal) x1 (ix1 e))) j) := by
  rw [val_main_v42_apply, weightRow_apply, srcRow_apply]
  rfl

/-! ## The aggregate at a node -/

/-- The array of zeros that the messages are added into, at an element. -/
theorem zeros_apply (i : S50000x64.Idx) : val_main_v43 (F := Ideal) i = 0 := by
  rw [val_main_v43_apply, val_main_cst_8_apply]
  exact Ideal.ofBits_zero_f32

/-- The accumulating scatter of extended reals at an index: the operand's element plus the sum of the updates whose
    result index is that element (any shapes; the definition read at an index). -/
theorem scatterAdd_apply {s si su : Shape} {w : Nat} {φ : FTy} (d : ScatterDims s si su) (x : FVec Ideal s φ)
    (idx : IVec si w) (upd : FVec Ideal su φ) (i : s.Idx) :
    Host.scatterAdd d x idx upd i
      = x i + ∑ j ∈ Finset.univ.filter (fun j => d.resultIdx? j idx = some i), upd j := rfl

/-- THE AGGREGATE AT `i`: zero plus the sum of the messages whose result index is `i`. -/
theorem aggregate_apply (i : S50000x64.Idx) :
    val_main_v45 (F := Ideal) x0 x1 x2 i
      = 0 + ∑ u ∈ Finset.univ.filter (fun u =>
          scatter_S50000x64_S850000x1_S850000x64_1_0_0_1.resultIdx? u (val_main_v44 (F := Ideal) x1) = some i),
            val_main_v42 (F := Ideal) x0 x1 x2 u := by
  have h := scatterAdd_apply (φ := .f32) scatter_S50000x64_S850000x1_S850000x64_1_0_0_1 (val_main_v43 (F := Ideal))
    (val_main_v44 (F := Ideal) x1) (val_main_v42 (F := Ideal) x0 x1 x2) i
  rw [zeros_apply] at h
  unfold val_main_v45
  with_reducible exact h

/-- The destination of edge `e` with a negative index shifted, when the raw destination's signed value is a
    natural number: the raw destination itself. -/
theorem dst_of_toInt (e : Fin 850000) (n : Nat)
    (h : (val_main_v6 (F := Ideal) x1 (ix1 e)).toInt = (n : Int)) :
    val_main_v28 (F := Ideal) x1 (ix1 e) = val_main_v6 (F := Ideal) x1 (ix1 e) := by
  rw [val_main_v28_apply, val_main_v25_apply, val_main_v24_apply, val_main_c_4_apply]
  exact select_slt_zero_of_toInt _ n h _ _

/-- WHERE A MESSAGE LANDS: the message of edge `e` at column `j` is added at `(n, j)` only when `n` is
    the destination of `e` (shifted and clamped as the gathers read it). -/
theorem lands (e : Fin 850000) (j : Fin 64) (i : S50000x64.Idx)
    (h : scatter_S50000x64_S850000x1_S850000x64_1_0_0_1.resultIdx? (ix2 e j) (val_main_v44 (F := Ideal) x1) = some i) :
    ∃ n : Fin 50000, i = ix2 n j ∧ clampRow 50000 (by decide) (val_main_v28 (F := Ideal) x1 (ix1 e)) = n := by
  obtain ⟨n, hi, hn⟩ := rowScatter_resultIdx?_eq_some
    scatter_S50000x64_S850000x1_S850000x64_1_0_0_1.wf (val_main_v44 (F := Ideal) x1) e j i h
  rw [dstRaw_apply] at hn
  refine ⟨n, hi, ?_⟩
  rw [dst_of_toInt x1 e n.val hn]
  exact clampRow_of_toInt (by decide) _ n hn

/-! ## The output -/

/-- The bias broadcast over the nodes, at `(n, j)`. -/
theorem bias_apply (n : Fin 50000) (j : Fin 64) : val_main_v47 (F := Ideal) x3 (ix2 n j) = x3 (ix1 j) := by
  rw [val_main_v47_apply, val_main_v46_apply]
  congr 1
  funext a
  match a with
  | ⟨0, _⟩ => rfl

/-- The array of zeros that the rectifier compares with, at an element. -/
theorem reluZero_apply (i : S50000x64.Idx) : val_main_call1_v0 (F := Ideal) i = 0 := by
  rw [val_main_call1_v0_apply, val_main_call1_cst_apply]
  exact Ideal.ofBits_zero_f32

/-- THE OUTPUT AT `(n, j)`: the aggregate plus the bias, rectified, plus the input. -/
theorem out_apply (n : Fin 50000) (j : Fin 64) :
    val_main_v50 (F := Ideal) x0 x1 x2 x3 (ix2 n j)
      = max (val_main_v45 (F := Ideal) x0 x1 x2 (ix2 n j) + x3 (ix1 j)) 0 + x0 (ix2 n j) := by
  rw [val_main_v50_apply, val_main_v49_apply, val_main_v48_apply, bias_apply, reluZero_apply]
  simp only [Ideal.addf_def, Ideal.maximumf_def]

/-! ## The inverse root degree -/

/-- THE INVERSE ROOT DEGREE OF NODE `n`: the reciprocal square root of its degree where the degree is positive,
    zero elsewhere. -/
theorem invSqrt_apply (n : Fin 50000) :
    val_main_v15 (F := Ideal) x1 (ix1 n)
      = Scalar.select (Ideal.cmp .ogt (val_main_v10 (F := Ideal) x1 (ix1 n)) (Ideal.ofBits .f32 0x00000000#32))
          (Ideal.rsqrt (val_main_v10 (F := Ideal) x1 (ix1 n))) (Ideal.ofBits .f32 0x00000000#32) := by
  rw [val_main_v15_apply, val_main_v12_apply, val_main_v13_apply, val_main_v14_apply, val_main_v11_apply,
    val_main_cst_1_apply, val_main_cst_2_apply]
  simp only [Ideal.cmpf_def, Ideal.hostUnary_rsqrt_def, Ideal.ofBits_def]

end Cert.ReferenceIdeal.RefValue

end
-- ==== Proof.KernelIndex.lean ====
/-
  The host side of the idealized kernel program read at an index: the inverse root degree as a column and the bias as a
  row are their flat arrays re-indexed; a gathered row is the scaled row of the edge's (normalised, clamped) source; a
  scaled row is the row of `x @ W` times its node's inverse root degree; the aggregate at an index is the sum of the
  gathered entries over the edges that land there; an edge lands on the node its destination index names, in the same
  lane; the inverse root degree is `rsqrt` of the degree where that is positive and zero elsewhere.
-/
import proofs.«113441_j88527865905437_2_alg».proof.Proof.KernelTerms
import proofs.«113441_j88527865905437_2_alg».proof.Proof.LibRowGatherScatter
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Terms

open Cert.KernelIdeal Cert.KernelIdeal.Gen Idealize.ShloMosaic Idealize.ShloMosaic.ValueIdx
open Idealize.ShloMosaic.RowGatherScatter

/-! ## Two re-indexings of a flat array -/

/-- A flat array viewed as one column: an `[a]` array cast to `[a, 1]` reads, at `(i, u)`, the operand at `i`, whatever
    the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A flat array of edge data viewed as one column by a broadcast along a new unit axis reads, at `(e, 0)`, the operand
    at `e`. -/
theorem edgeColumn_apply {α : Type} (v : S850000.Idx → α) (e : Fin 850000) :
    broadcastInDim S850000x1 ![0] bcast_S850000_S850000x1_0 v (ix2 e (0 : Fin 1)) = v (ix1 e) :=
  broadcastInDim_apply _ bcast_S850000_S850000x1_0 v (ix2 e (0 : Fin 1)) (ix1 e) (fun a => match a with
    | ⟨0, _⟩ => by show e.val = if (850000 : Nat) = 1 then 0 else e.val; rw [if_neg (by decide)])

/-- The inverse root degree as a column, at row `n`, is the inverse root degree of node `n`. -/
theorem invSqrtDegCol_apply (x1 : IVec S2x800000 32) (n : Fin 50000) :
    invSqrtDegCol x1 (ix2 n (0 : Fin 1)) = invSqrtDeg x1 (ix1 n) := by
  unfold invSqrtDegCol
  generalize invSqrtDeg x1 = y
  exact shapeCast_a_a1_apply y shapeCasts_S50000_S50000x1 n (0 : Fin 1)

/-- The bias as a one-row array, at lane `j`, is the bias at `j`. -/
theorem biasRow_apply (x3 : FVec Ideal S64 .f32) (j : Fin 64) : biasRow x3 (ix2 (0 : Fin 1) j) = x3 (ix1 j) := by
  unfold biasRow
  exact shapeCast_a_1a_apply x3 shapeCasts_S64_S1x64 (0 : Fin 1) j

/-! ## The scaled rows and their gather -/

/-- A scaled row at `(n, j)`: row `n` of `x` times column `j` of `W`, times node `n`'s inverse root degree. -/
theorem scaledRows_apply (x0 : FVec Ideal S50000x64 .f32) (x1 : IVec S2x800000 32) (x2 : FVec Ideal S64x64 .f32)
    (n : Fin 50000) (j : Fin 64) :
    scaledRows x0 x1 x2 (ix2 n j) = (∑ k : Fin 64, x0 (ix2 n k) * x2 (ix2 k j)) * invSqrtDeg x1 (ix1 n) := by
  unfold scaledRows
  rw [Linear.linearOut_apply, invSqrtDegCol_apply]

/-- The printed dimension numbers of the gather are those of a gather of whole rows. -/
theorem gatherDims_eq : gather_S50000x64_S850000x1_S850000x64_1_0_n_n_0_1_164
    = rowGatherDims 50000 850000 64 gather_S50000x64_S850000x1_S850000x64_1_0_n_n_0_1_164_wf := rfl

/-- The gathered array at edge `e`, lane `j`: the scaled row of the edge's source — its normalised index read signed and
    clamped into the node range — at lane `j`. -/
theorem gathered_apply (x0 : FVec Ideal S50000x64 .f32) (x1 : IVec S2x800000 32) (x2 : FVec Ideal S64x64 .f32)
    (e : Fin 850000) (j : Fin 64) :
    gathered x0 x1 x2 (ix2 e j)
      = scaledRows x0 x1 x2 (ix2 (clampRow 50000 (by decide) (srcNorm x1 (ix1 e))) j) := by
  unfold gathered
  generalize scaledRows x0 x1 x2 = y
  rw [gatherDims_eq, gather_rows_apply (by decide : 0 < 50000), edgeColumn_apply]

/-! ## The aggregate -/

/-- The all-zeros array over nodes and lanes reads the zero word's value everywhere. -/
theorem zerosNodeLanes_apply (i : S50000x64.Idx) :
    broadcastInDim S50000x64 ![] bcast_S_S50000x64 (constant (F := Ideal) S_ .f32 0x00000000#32) i
      = Ideal.ofBits .f32 0x00000000#32 := by
  have hc : ∀ k : S_.Idx, constant (F := Ideal) S_ .f32 0x00000000#32 k = Ideal.ofBits .f32 0x00000000#32 :=
    fun k => constant_apply _ k
  generalize constant (F := Ideal) S_ .f32 0x00000000#32 = z at hc ⊢
  rw [broadcastInDim_apply _ bcast_S_S50000x64 z i (fun a => a.elim0) (fun a => a.elim0)]
  exact hc _

/-- The host's accumulating scatter over the extended reals, at an index: the operand there plus the sum of the updates
    that land there. -/
theorem scatterAdd_apply {s si su : Shape} {w : Nat} (d : ScatterDims s si su) (Z : FVec Ideal s .f32) (idx : IVec si w)
    (g : FVec Ideal su .f32) (i : s.Idx) :
    Host.scatterAdd d Z idx g i = Z i + ∑ u ∈ Finset.univ.filter (fun u => d.resultIdx? u idx = some i), g u := rfl

/-- The aggregate at an index: the sum of the gathered entries over the edge entries that land on it (the operand the
    sum is added onto is all zeros). -/
theorem aggregate_apply (x0 : FVec Ideal S50000x64 .f32) (x1 : IVec S2x800000 32) (x2 : FVec Ideal S64x64 .f32)
    (i : S50000x64.Idx) :
    aggregate x0 x1 x2 i
      = 0 + ∑ u ∈ Finset.univ.filter (fun u => scatter_S50000x64_S850000x1_S850000x64_1_0_0_1.resultIdx? u
          (broadcastInDim S850000x1 ![0] bcast_S850000_S850000x1_0 (dstNode x1)) = some i), gathered x0 x1 x2 u := by
  unfold aggregate
  generalize gathered x0 x1 x2 = g
  have hz := zerosNodeLanes_apply i
  generalize broadcastInDim S50000x64 ![] bcast_S_S50000x64 (constant (F := Ideal) S_ .f32 0x00000000#32) = Z at hz ⊢
  generalize broadcastInDim S850000x1 ![0] bcast_S850000_S850000x1_0 (dstNode x1) = idx
  refine (scatterAdd_apply _ Z idx g i).trans ?_
  rw [hz, Ideal.ofBits_zero_f32]

/-- The printed dimension numbers of the scatter are those of a scatter of whole rows. -/
theorem scatterDims_eq : scatter_S50000x64_S850000x1_S850000x64_1_0_0_1
    = rowScatterDims 50000 850000 64 scatter_S50000x64_S850000x1_S850000x64_1_0_0_1_wf := rfl

/-- Where an edge entry lands: entry `(e, j)` lands on `(n, j)` for the node `n` that edge `e`'s destination index, read
    signed, names. -/
theorem lands (x1 : IVec S2x800000 32) (e : Fin 850000) (j : Fin 64) (i : S50000x64.Idx)
    (h : scatter_S50000x64_S850000x1_S850000x64_1_0_0_1.resultIdx? (ix2 e j)
      (broadcastInDim S850000x1 ![0] bcast_S850000_S850000x1_0 (dstNode x1)) = some i) :
    ∃ n : Fin 50000, i = ix2 n j ∧ (dstNode x1 (ix1 e)).toInt = (n.val : Int) := by
  rw [scatterDims_eq] at h
  have hcol := edgeColumn_apply (dstNode x1) e
  generalize broadcastInDim S850000x1 ![0] bcast_S850000_S850000x1_0 (dstNode x1) = idx at h hcol
  obtain ⟨n, hi, hn⟩ := rowScatter_resultIdx?_eq_some scatter_S50000x64_S850000x1_S850000x64_1_0_0_1_wf idx e j i h
  rw [hcol] at hn
  exact ⟨n, hi, hn⟩

/-! ## The inverse root degree -/

/-- The all-zeros array over the nodes reads the zero word's value everywhere. -/
theorem zerosNodes_apply (i : S50000.Idx) :
    broadcastInDim S50000 ![] bcast_S_S50000 (constant (F := Ideal) S_ .f32 0x00000000#32) i
      = Ideal.ofBits .f32 0x00000000#32 := by
  have hc : ∀ k : S_.Idx, constant (F := Ideal) S_ .f32 0x00000000#32 k = Ideal.ofBits .f32 0x00000000#32 :=
    fun k => constant_apply _ k
  generalize constant (F := Ideal) S_ .f32 0x00000000#32 = z at hc ⊢
  rw [broadcastInDim_apply _ bcast_S_S50000 z i (fun a => a.elim0) (fun a => a.elim0)]
  exact hc _

/-- The host's inverse root at an index is the extended reals' inverse root of the element. -/
theorem hostRsqrt_apply {s : Shape} (y : FVec Ideal s .f32) (i : s.Idx) : Host.rsqrt y i = Ideal.rsqrt (y i) := by
  show FloatOps.hostUnary .rsqrt (y i) = _
  exact Ideal.hostUnary_rsqrt_def _

/-- The inverse root degree of node `n`: `rsqrt` of its degree where the degree is positive, zero elsewhere. -/
theorem invSqrtDeg_apply (x1 : IVec S2x800000 32) (n : Fin 50000) :
    invSqrtDeg x1 (ix1 n)
      = Scalar.select (Ideal.cmp .ogt (degree x1 (ix1 n)) (Ideal.ofBits .f32 0x00000000#32))
          (Ideal.rsqrt (degree x1 (ix1 n))) (Ideal.ofBits .f32 0x00000000#32) := by
  unfold invSqrtDeg
  generalize degree x1 = y
  have hz := zerosNodes_apply (ix1 n)
  generalize broadcastInDim S50000 ![] bcast_S_S50000 (constant (F := Ideal) S_ .f32 0x00000000#32) = Z at hz ⊢
  generalize Ideal.ofBits .f32 0x00000000#32 = z0 at hz ⊢
  rw [select_apply, cmpf_apply, hz, Ideal.cmpf_def, hostRsqrt_apply]

end Cert.KernelIdeal.Terms

end
-- ==== Proof.SegmentAlgebra.lean ====
/-
  The algebra that joins the two programs, on the extended reals, with no program in sight.

  Both programs aggregate messages along edges into their destination rows: entry (c, j) of the aggregate is a sum, over
  the edges e that land on row c, of a message value. One program scales every message by the product of the source's and
  the destination's inverse root degree before summing; the other scales the source side before the sum and the destination
  side after it. The destination's factor d is the same for every edge landing on c, so the two agree as soon as
  d · Σ f = Σ d · f. On the extended reals this law holds for a factor that is a real number ≥ 0 (it fails only for an
  infinite factor against a sum of mixed infinities), and an inverse root degree — 1/sqrt(deg) where deg > 0, else 0 — is
  such a number whatever extended real deg is (at +∞ the inverse root is 0).
-/
import Idealize.ShloMosaic.PureOps.Ideal.Laws
import Idealize.ShloMosaic.Lib.IdealHost

noncomputable section

open scoped BigOperators

namespace Cert.SegmentAlgebra

open Idealize.ShloMosaic

/-- A factor that is neither negative nor +∞ distributes over a finite sum of extended reals, whatever the terms. -/
theorem mul_sum_of_nonneg_ne_top {ι : Type} (d : EReal) (hd : 0 ≤ d) (hd' : d ≠ ⊤) (s : Finset ι) (f : ι → EReal) :
    d * ∑ u ∈ s, f u = ∑ u ∈ s, d * f u := by
  classical
  induction s using Finset.induction_on with
  | empty => simp
  | insert a s ha ih =>
    rw [Finset.sum_insert ha, Finset.sum_insert ha, EReal.left_distrib_of_nonneg_of_ne_top hd hd', ih]

/-- A sum from zero scaled afterwards by such a factor is the sum, from zero, of terms that carry the factor. -/
theorem scaled_sum_from_zero {ι : Type} (s : Finset ι) (d : EReal) (hd : 0 ≤ d) (hd' : d ≠ ⊤) (f g : ι → EReal)
    (h : ∀ u ∈ s, d * f u = g u) : d * (0 + ∑ u ∈ s, f u) = 0 + ∑ u ∈ s, g u := by
  rw [zero_add, zero_add, mul_sum_of_nonneg_ne_top d hd hd']
  exact Finset.sum_congr rfl h

/-- The same with the two sums taken over two spellings of one index set. -/
theorem scaled_sum_from_zero' {ι : Type} (s₁ s₂ : Finset ι) (hs : ∀ u, u ∈ s₁ ↔ u ∈ s₂) (d : EReal) (hd : 0 ≤ d) (hd' : d ≠ ⊤)
    (f g : ι → EReal) (h : ∀ u ∈ s₂, d * f u = g u) : d * (0 + ∑ u ∈ s₁, f u) = 0 + ∑ u ∈ s₂, g u := by
  obtain rfl : s₁ = s₂ := Finset.ext hs
  exact scaled_sum_from_zero s₁ d hd hd' f g h

/-- One message: the destination's factor times (the transformed source row's entry times the source's factor) is the
    edge's full weight (source factor · unit edge weight · destination factor) times the transformed entry. -/
theorem message_eq (d r one S : EReal) (h1 : one = 1) : d * (S * r) = (r * one * d) * S := by
  subst h1
  rw [mul_one]
  ac_rfl

/-- The inverse root degree, as the programs compute it — `rsqrt x` where `x > 0`, else `0` —, is a real number that is
    not negative, whatever extended real `x` is. -/
theorem invSqrt_nonneg_ne_top (x z : EReal) (hz : z = 0) :
    0 ≤ Scalar.select (Ideal.cmp .ogt x z) (Ideal.rsqrt x) z ∧ Scalar.select (Ideal.cmp .ogt x z) (Ideal.rsqrt x) z ≠ ⊤ := by
  subst hz
  unfold Scalar.select Ideal.cmp
  induction x using EReal.rec with
  | bot => simp
  | top => simp [Ideal.rsqrt_top]
  | coe r =>
    by_cases hr : 0 < r
    · have h0 : ¬ r < 0 := not_lt.mpr hr.le
      have h1 : r ≠ 0 := ne_of_gt hr
      have hpos : (0 : EReal) < (r : EReal) := by exact_mod_cast hr
      simp only [hpos, decide_true, BitVec.ofBool_true, if_true, Ideal.rsqrt_coe, h0, h1, if_false]
      refine ⟨?_, EReal.coe_ne_top _⟩
      exact_mod_cast inv_nonneg.mpr (Real.sqrt_nonneg r)
    · have hpos : ¬ (0 : EReal) < (r : EReal) := by exact_mod_cast hr
      simp [hpos]

end Cert.SegmentAlgebra

end
-- ==== Proof.Bridge.lean ====
/-
  The two programs compute one function of the argument arrays, on the extended reals.

  With d(n) the inverse root degree of node n (a real number ≥ 0 whatever the degree), h = x @ W, s(e) and t(e) the source
  and destination of edge e (a negative index moved up by the number of nodes, then clamped into range, where a row is
  read), the reference's aggregate at (n, j) is the sum, over the edge entries that land on (n, j), of
  (d(s e) · 1 · d(t e)) · h(s e, j), and the kernel program's is the sum of h(s e, j) · d(s e) over the same entries, scaled
  by d(n) afterwards. An entry (e, j') lands on (n, j) exactly when e's destination index, read signed and unclamped, is n
  and j' = j; for such an edge t(e) = n. So the two aggregates differ by the factor d(n) inside or outside the sum, and
  d(n), being a real ≥ 0, distributes over any sum of extended reals. Both programs then add the bias, take the maximum
  with zero and add x.

  The two programs spell their shapes and dimension numbers with their own constants; the integer stages (edge sources and
  destinations, their normalisation, the index columns) and the degree (a scatter of ones) agree by unfolding, and the
  inverse root degrees agree element by element.
-/
import proofs.«113441_j88527865905437_2_alg».proof.Proof.RefValue
import proofs.«113441_j88527865905437_2_alg».proof.Proof.KernelIndex
import proofs.«113441_j88527865905437_2_alg».proof.Proof.EpiloguePayload
import proofs.«113441_j88527865905437_2_alg».proof.Proof.SegmentAlgebra

noncomputable section

open scoped BigOperators

namespace Cert.Bridge

open Idealize.ShloMosaic Idealize.ShloMosaic.ValueIdx Idealize.ShloMosaic.RowGatherScatter
open Cert.ReferenceIdeal.Read Cert.KernelIdeal

variable (x0 : (⟨2, ![50000, 64]⟩ : Shape).Idx → EReal) (x1 : (⟨2, ![2, 800000]⟩ : Shape).Idx → BitVec 32)
  (x2 : (⟨2, ![64, 64]⟩ : Shape).Idx → EReal) (x3 : (⟨1, ![64]⟩ : Shape).Idx → EReal)

/-! ## The stages the two programs share -/

/-- Every edge's destination node. -/
theorem dstNode_eq : (Terms.dstNode x1 : (⟨1, ![850000]⟩ : Shape).Idx → BitVec 32) = val_main_v6 (F := Ideal) x1 := rfl

/-- Every edge's source node, a negative index normalised. -/
theorem srcNorm_eq : (Terms.srcNorm x1 : (⟨1, ![850000]⟩ : Shape).Idx → BitVec 32) = val_main_v20 (F := Ideal) x1 := rfl

/-- The destination nodes as the index column the aggregation scatters by. -/
theorem dstColumn_eq : (broadcastInDim KernelIdeal.S850000x1 ![0] KernelIdeal.Facts₀.bcast_S850000_S850000x1_0 (Terms.dstNode x1)
    : (⟨2, ![850000, 1]⟩ : Shape).Idx → BitVec 32) = val_main_v44 (F := Ideal) x1 := rfl

/-- The degrees: ones summed over the edges landing on each node. -/
theorem degree_eq : (Terms.degree x1 : (⟨1, ![50000]⟩ : Shape).Idx → EReal) = val_main_v10 (F := Ideal) x1 := rfl

/-- The inverse root degrees, element by element. -/
theorem invSqrtDeg_eq (n : Fin 50000) : Terms.invSqrtDeg x1 (ix1 n) = val_main_v15 (F := Ideal) x1 (ix1 n) := by
  rw [Terms.invSqrtDeg_apply, ReferenceIdeal.RefValue.invSqrt_apply, degree_eq]

/-- An inverse root degree is a real number that is not negative. -/
theorem invSqrtDeg_nonneg (n : Fin 50000) :
    0 ≤ val_main_v15 (F := Ideal) x1 (ix1 n) ∧ val_main_v15 (F := Ideal) x1 (ix1 n) ≠ ⊤ := by
  rw [ReferenceIdeal.RefValue.invSqrt_apply]
  exact SegmentAlgebra.invSqrt_nonneg_ne_top _ _ Ideal.ofBits_zero_f32

/-! ## The aggregates -/

/-- The reference's aggregate at `(n, j)` is the kernel program's, scaled by node `n`'s inverse root degree. -/
theorem aggregate_eq (n : Fin 50000) (j : Fin 64) :
    val_main_v15 (F := Ideal) x1 (ix1 n) * Terms.aggregate x0 x1 x2 (ix2 n j) = val_main_v45 (F := Ideal) x0 x1 x2 (ix2 n j) := by
  obtain ⟨hd, hd'⟩ := invSqrtDeg_nonneg x1 n
  rw [Terms.aggregate_apply, ReferenceIdeal.RefValue.aggregate_apply]
  refine SegmentAlgebra.scaled_sum_from_zero' _ _ (fun u => ?_) _ hd hd' _ _ (fun u hu => ?_)
  · simp only [Finset.mem_filter, Finset.mem_univ, true_and]
    rw [dstColumn_eq]
    exact Iff.rfl
  · obtain ⟨e, j', rfl⟩ : ∃ (e : Fin 850000) (j' : Fin 64), u = ix2 e j' := ⟨u 0, u 1, eq_ix2 u⟩
    obtain ⟨n', hi, hcl⟩ := ReferenceIdeal.RefValue.lands x1 e j' _ (Finset.mem_filter.mp hu).2
    obtain rfl : n = n' := congrFun hi 0
    obtain rfl : j = j' := congrFun hi 1
    rw [Terms.gathered_apply, Terms.scaledRows_apply, ReferenceIdeal.RefValue.message_apply,
      ReferenceIdeal.RefValue.weight_apply, ReferenceIdeal.RefValue.matmul_apply, hcl, srcNorm_eq, invSqrtDeg_eq]
    exact SegmentAlgebra.message_eq _ _ 1 _ rfl

/-! ## The results -/

/-- The reference's result is the second region's function of the kernel program's aggregate, the node features, the
    bias row and the column of inverse root degrees. -/
theorem result_eq :
    val_main_v50 (F := Ideal) x0 x1 x2 x3
      = Epilogue.epilogueOut (Terms.aggregate x0 x1 x2) x0 (Terms.biasRow x3) (Terms.invSqrtDegCol x1) := by
  funext i
  obtain ⟨n, j, rfl⟩ : ∃ (n : Fin 50000) (j : Fin 64), i = ix2 n j := ⟨i 0, i 1, eq_ix2 i⟩
  rw [ReferenceIdeal.RefValue.out_apply, Epilogue.epilogueOut_apply, Terms.biasRow_apply, Terms.invSqrtDegCol_apply,
    invSqrtDeg_eq, aggregate_eq]

end Cert.Bridge

end
-- ==== Proof.lean ====
/-
  The certificate's five claims for a graph-convolution layer with a residual connection: out = relu(agg + b) + x, where
  agg is the normalised adjacency (with self-loops, symmetric inverse-root-degree scaling) applied to x @ W.

  The kernel program computes x @ W scaled by the SOURCE node's inverse root degree in a first kernel, gathers and sums
  those rows over the edges on the host, and scales the sums by the DESTINATION node's inverse root degree in a second
  kernel that also adds the bias, clamps at zero and adds x. The reference scales every message by both factors before
  summing. On the extended reals the two are one function of the arguments: an inverse root degree is a real number
  that is not negative, and such a factor distributes over any sum (Proof/SegmentAlgebra.lean, Proof/Bridge.lean).

  Frames: both kernel programs' frames are the generated ones; the reference's frame is its run with the result dropped.
  `preserves` has no conjunct (the idealization rewrote nothing). `algebraic`: the kernel program's run with its result
  named (Proof/KernelRun.lean) and read as a function of the arguments (Proof/KernelValue.lean) beside the reference's run
  read back operation by operation (Proof/RefRun.lean, Proof/RefRead.lean, Proof/RefValue.lean).
-/
import proofs.«113441_j88527865905437_2_alg».proof.Defs
import proofs.«113441_j88527865905437_2_alg».proof.Proof.Gen.Kernel
import proofs.«113441_j88527865905437_2_alg».proof.Proof.Gen.Kernel.Skeleton
import proofs.«113441_j88527865905437_2_alg».proof.Proof.Gen.Kernel.Launch
import proofs.«113441_j88527865905437_2_alg».proof.Proof.Gen.Kernel.Points
import proofs.«113441_j88527865905437_2_alg».proof.Proof.Gen.Kernel.Frame
import proofs.«113441_j88527865905437_2_alg».proof.Proof.Gen.KernelIdeal
import proofs.«113441_j88527865905437_2_alg».proof.Proof.Gen.KernelIdeal.Skeleton
import proofs.«113441_j88527865905437_2_alg».proof.Proof.Gen.KernelIdeal.Launch
import proofs.«113441_j88527865905437_2_alg».proof.Proof.Gen.KernelIdeal.Points
import proofs.«113441_j88527865905437_2_alg».proof.Proof.Gen.KernelIdeal.Frame
import proofs.«113441_j88527865905437_2_alg».proof.Proof.Gen.ReferenceIdeal
import proofs.«113441_j88527865905437_2_alg».proof.Proof.Gen.Pre_finite_inputs
import proofs.«113441_j88527865905437_2_alg».proof.Proof.RefRun
import proofs.«113441_j88527865905437_2_alg».proof.Proof.RefRead
import proofs.«113441_j88527865905437_2_alg».proof.Proof.KernelRun
import proofs.«113441_j88527865905437_2_alg».proof.Proof.KernelValue
import proofs.«113441_j88527865905437_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- At the extended reals the kernel program's result array ends at the second region's function of the aggregate (its
    run, read) and the reference's at its operations' composed term of arguments that agree: one function. -/
theorem algebraic : Cert.algebraic_KernelIdeal_ReferenceIdeal := by
  intro m ρ m' ρ' _ hagree
  refine ⟨fun c => Cert.KernelIdeal.Gen.W6 m ρ c (Proc.devRef .tc Cert.KernelIdeal.main_v29),
    Cert.KernelIdeal.Run.run_out (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v50_eq, (hagree c).1, (hagree c).2.1, (hagree c).2.2.1, (hagree c).2.2.2]
  exact (Cert.Bridge.result_eq _ _ _ _).trans (Cert.KernelIdeal.KValue.out_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
